-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_base_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048 : Shape := ⟨1, ![2048]⟩
abbrev S32768x128 : Shape := ⟨2, ![32768, 128]⟩
abbrev S32768 : Shape := ⟨1, ![32768]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x128 .f32) (main_arg1 : IVec S2048 32) (main_arg2 : FVec F S32768x128 .f32) (main_arg3 : IVec S32768 32) (main_arg4 : FVec F S2048 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S32768x128 .f32 := Host.absf main_arg2
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S2048x128 : Shape := ⟨2, ![2048, 128]⟩
abbrev S2048 : Shape := ⟨1, ![2048]⟩
abbrev S32768x128 : Shape := ⟨2, ![32768, 128]⟩
abbrev S32768 : Shape := ⟨1, ![32768]⟩
abbrev S2048x1 : Shape := ⟨2, ![2048, 1]⟩
abbrev S1x32768 : Shape := ⟨2, ![1, 32768]⟩
abbrev S256x128 : Shape := ⟨2, ![256, 128]⟩
abbrev S256x1 : Shape := ⟨2, ![256, 1]⟩
abbrev S1x2048 : Shape := ⟨2, ![1, 2048]⟩
abbrev S128x2048 : Shape := ⟨2, ![128, 2048]⟩
abbrev S256x2048 : Shape := ⟨2, ![256, 2048]⟩
abbrev S256 : Shape := ⟨1, ![256]⟩
abbrev S_ : Shape := ⟨0, ![]⟩

abbrev nBuf : Space → Nat
  | .hbm => 13
  | .vmem => 16
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S32768x128, .f32⟩
  | .hbm, ⟨3, _⟩ => ⟨S32768, .i32⟩
  | .hbm, ⟨4, _⟩ => ⟨S2048, .f32⟩
  | .hbm, ⟨5, _⟩ => ⟨S2048x1, .i32⟩
  | .hbm, ⟨6, _⟩ => ⟨S1x32768, .i32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S256x1, .i32⟩
  | .local _ .vmem, ⟨5, _⟩ => ⟨S256x1, .i32⟩
  | .local _ .vmem, ⟨6, _⟩ => ⟨S1x2048, .i32⟩
  | .local _ .vmem, ⟨7, _⟩ => ⟨S1x2048, .i32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v75 : BitVec 1 := Scalar.cmpi .eq arg1 c15_i32
  let v76 : BitVec 32 := Scalar.extui v75
  let c0_i32_39 : BitVec 32 := 0#32
  let v77 : BitVec 1 := Scalar.cmpi .ne v76 c0_i32_39
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2048_S2048x1 : S2048.ShapeCasts S2048x1
  shapeCasts_S32768_S1x32768 : S32768.ShapeCasts S1x32768
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  transposes_S2048x128_p1_0_S128x2048 : S2048x128.Transposes [1, 0] S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  reduces_S256x2048_S256 : S256x2048.Reduces [1] S256
  shapeCasts_S256_S256x1 : S256.ShapeCasts S256x1
  natLt_1_32 : 1 < 32
  reducesTo_S2048x1_S_d0_1 : S2048x1.ReducesTo [0, 1] S_
  h_S_ : 0 < S_.numel
  dot_S256x128_S128x2048_S256x2048_1_0_0_1_n_n_wf : DotDims.WF S256x128 S128x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2048x128.size a
  hwx0_0 : ∀ i : grid0.Coords, EltTy.bits .f32 = 32 ∨ (Rect.block (s := S2048x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .f32 = 32 ∨ (Rect.block (s := S32768x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .i32 = 32 ∨ (Rect.block (s := S2048x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x32768.size a
  hwx0_3 : ∀ i : grid0.Coords, EltTy.bits .i32 = 32 ∨ (Rect.block (s := S1x32768) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S2048x1.size a
  hwx0_5 : ∀ i : grid0.Coords, EltTy.bits .f32 = 32 ∨ (Rect.block (s := S2048x1) S256x1.size (cc0_transform_5 i) (hinb0_5 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x128 : Shape := ⟨2, ![2048, 128]⟩
abbrev S2048 : Shape := ⟨1, ![2048]⟩
abbrev S32768x128 : Shape := ⟨2, ![32768, 128]⟩
abbrev S32768 : Shape := ⟨1, ![32768]⟩
abbrev S128x32768 : Shape := ⟨2, ![128, 32768]⟩
abbrev S2048x32768 : Shape := ⟨2, ![2048, 32768]⟩
abbrev S2048x1 : Shape := ⟨2, ![2048, 1]⟩
abbrev S1x32768 : Shape := ⟨2, ![1, 32768]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S32768x128, .f32⟩
  | .hbm, ⟨3, _⟩ => ⟨S32768, .i32⟩
  | .hbm, ⟨4, _⟩ => ⟨S2048, .f32⟩
  | .hbm, ⟨5, _⟩ => ⟨S128x32768, .f32⟩
  | .hbm, ⟨6, _⟩ => ⟨S2048x32768, .f32⟩
  | .hbm, ⟨7, _⟩ => ⟨S2048x1, .i32⟩
  | .hbm, ⟨8, _⟩ => ⟨S1x32768, .i32⟩
  | .hbm, ⟨9, _⟩ => ⟨S2048x32768, .i32⟩
  | .hbm, ⟨10, _⟩ => ⟨S2048x32768, .i32⟩
  | .hbm, ⟨11, _⟩ => ⟨S2048x32768, .i1⟩
  | .hbm, ⟨12, _⟩ => ⟨S2048x32768, .f32⟩
  | .hbm, ⟨13, _⟩ => ⟨S_, .f32⟩
  | .hbm, ⟨14, _⟩ => ⟨S2048x32768, .f32⟩
  | .hbm, ⟨15, _⟩ => ⟨S2048x32768, .i1⟩
  | .hbm, ⟨16, _⟩ => ⟨S_, .f32⟩
  | .hbm, ⟨17, _⟩ => ⟨S2048x32768, .f32⟩
  | .hbm, ⟨18, _⟩ => ⟨S2048x32768, .f32⟩
  | .hbm, ⟨19, _⟩ => ⟨S2048x32768, .f32⟩
  | .hbm, ⟨20, _⟩ => ⟨S_, .f32⟩
  | .hbm, ⟨21, _⟩ => ⟨S2048x32768, .f32⟩
  | .hbm, ⟨22, _⟩ => ⟨S2048x32768, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x32768, .f32⟩
  | .hbm, ⟨28, _⟩ => ⟨S2048x32768, .f32⟩
  | .hbm, ⟨29, _⟩ => ⟨S_, .f32⟩
  | .hbm, ⟨30, _⟩ => ⟨S2048x32768, .f32⟩
  | .hbm, ⟨31, _⟩ => ⟨S2048x32768, .f32⟩
  | .hbm, ⟨32, _⟩ => ⟨S2048x32768, .f32⟩
  | .hbm, ⟨33, _⟩ => ⟨S2048x32768, .f32⟩
  | .hbm, ⟨34, _⟩ => ⟨S_, .f32⟩
  | .hbm, ⟨35, _⟩ => ⟨S2048x32768, .f32⟩
  | .hbm, ⟨36, _⟩ => ⟨S2048x32768, .f32⟩
  | .hbm, ⟨37, _⟩ => ⟨S_, .f32⟩
  | .hbm, ⟨38, _⟩ => ⟨S2048x32768, .f32⟩
  | .hbm, ⟨39, _⟩ => ⟨S2048x32768, .f32⟩
  | .hbm, ⟨40, _⟩ => ⟨S_, .f32⟩
  | .hbm, ⟨41, _⟩ => ⟨S2048x32768, .f32⟩
  | .hbm, ⟨42, _⟩ => ⟨S2048x32768, .f32⟩
  | .hbm, ⟨43, _⟩ => ⟨S_, .f32⟩
  | .hbm, ⟨44, _⟩ => ⟨S2048x32768, .f32⟩
  | .hbm, ⟨45, _⟩ => ⟨S2048x32768, .f32⟩
  | .hbm, ⟨46, _⟩ => ⟨S_, .f32⟩
  | .hbm, ⟨47, _⟩ => ⟨S2048x32768, .f32⟩
  | .hbm, ⟨48, _⟩ => ⟨S2048x32768, .f32⟩
  | .hbm, ⟨49, _⟩ => ⟨S_, .f32⟩
  | .hbm, ⟨50, _⟩ => ⟨S2048x32768, .f32⟩
  | .hbm, ⟨51, _⟩ => ⟨S2048x32768, .f32⟩
  | .hbm, ⟨52, _⟩ => ⟨S2048x32768, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x32768, .f32⟩
  | .hbm, ⟨57, _⟩ => ⟨S2048x32768, .f32⟩
  | .hbm, ⟨58, _⟩ => ⟨S2048x32768, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S2048x32768, .f32⟩
  | .hbm, ⟨67, _⟩ => ⟨S2048x32768, .f32⟩
  | .hbm, ⟨68, _⟩ => ⟨S_, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .i1⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S2048x1, .f32⟩
  | .hbm, ⟨77, _⟩ => ⟨S2048x32768, .f32⟩
  | .hbm, ⟨78, _⟩ => ⟨S2048x32768, .f32⟩
  | .hbm, ⟨79, _⟩ => ⟨S2048x32768, .f32⟩
  | .hbm, ⟨80, _⟩ => ⟨S_, .f32⟩
  | .hbm, ⟨81, _⟩ => ⟨S2048, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  transposes_S32768x128_S128x32768_1_0 : S32768x128.Transposes [1, 0] S128x32768
  bcast_S2048_S2048x1_0 : S2048.BroadcastsInDim S2048x1 (![0] : Fin 1 → Fin S2048x1.rank)
  bcast_S32768_S1x32768_1 : S32768.BroadcastsInDim S1x32768 (![1] : Fin 1 → Fin S1x32768.rank)
  bcast_S2048x1_S2048x32768_0_1 : S2048x1.BroadcastsInDim S2048x32768 (![0, 1] : Fin 2 → Fin S2048x32768.rank)
  bcast_S1x32768_S2048x32768_0_1 : S1x32768.BroadcastsInDim S2048x32768 (![0, 1] : Fin 2 → Fin S2048x32768.rank)
  bcast_S_S2048x32768 : S_.BroadcastsInDim S2048x32768 (![] : Fin 0 → Fin S2048x32768.rank)
  bcast_S_S2048x1 : S_.BroadcastsInDim S2048x1 (![] : Fin 0 → Fin S2048x1.rank)
  reducesTo_S2048x32768_S2048_d1 : S2048x32768.ReducesTo [1] S2048
  h_S_ : 0 < S_.numel
  bcast_S_S2048 : S_.BroadcastsInDim S2048 (![] : Fin 0 → Fin S2048.rank)
  reducesTo_S2048_S_d0 : S2048.ReducesTo [0] S_
  dot_S2048x128_S128x32768_S2048x32768_1_0_0_1_n_n_wf : DotDims.WF S2048x128 S128x32768 S2048x32768 [1] [0] [0] [1] [] []

variable [Facts₀]

def dot_S2048x128_S128x32768_S2048x32768_1_0_0_1_n_n : DotDims S2048x128 S128x32768 S2048x32768 where
  lhsContracting := [1]
  rhsContracting := [0]
  lhsNonContracting := [0]
  rhsNonContracting := [1]
  lhsBatch := []
  rhsBatch := []
  wf := dot_S2048x128_S128x32768_S2048x32768_1_0_0_1_n_n_wf

class Facts : Prop extends Facts₀ where

variable [Facts]
-- ==== Proof.Finite.lean ====
/-
  Finiteness: the precondition says every entry of the three float arguments has absolute value below +∞, so every
  entry is a real number (an extended real whose absolute value is not +∞ is neither +∞ nor −∞).
-/
import proofs.«102495_j45234595561871_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- An extended real whose absolute value compares below +∞ is a real. -/
theorem real_of_abs_lt (x : EReal) (h : Ideal.cmp .olt (max x (-x)) (Ideal.ofBits .f32 0x7F800000#32) = 1#1) :
    ∃ r : ℝ, x = ((r : ℝ) : EReal) := by
  have hinf : Ideal.ofBits .f32 0x7F800000#32 = ⊤ := by simp [Ideal.ofBits, Ideal.ieee]
  rw [hinf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => simp at hlt
  | coe r => exact ⟨r, rfl⟩
  | top => simp at hlt

variable [Facts]

/-- Under the precondition the three float arguments are real-valued. -/
theorem finite_of_pre (a0 : FVec Ideal S2048x128 .f32) (a1 : IVec S2048 32) (a2 : FVec Ideal S32768x128 .f32)
    (a3 : IVec S32768 32) (a4 : FVec Ideal S2048 .f32) (h : fn (F := Ideal) a0 a1 a2 a3 a4 = fun _ => 1#1) :
    (∀ i, ∃ r : ℝ, a0 i = ((r : ℝ) : EReal)) ∧ (∀ i, ∃ r : ℝ, a2 i = ((r : ℝ) : EReal))
      ∧ (∀ i, ∃ r : ℝ, a4 i = ((r : ℝ) : EReal)) := by
  have h0 := congrFun h ValueIdx.ix0
  dsimp only [fn] at h0
  change IntOp.andi _ _ = 1#1 at h0
  obtain ⟨h8, h12⟩ := IntOp.andi_eq_one.1 h0
  change IntOp.andi _ _ = 1#1 at h8
  obtain ⟨h3, h7⟩ := IntOp.andi_eq_one.1 h8
  exact ⟨fun i => real_of_abs_lt _ (Host.reduce_andi_all _ _ _ _ _ h3 i),
    fun i => real_of_abs_lt _ (Host.reduce_andi_all _ _ _ _ _ h7 i),
    fun i => real_of_abs_lt _ (Host.reduce_andi_all _ _ _ _ _ h12 i)⟩

end Cert.Finite

end
-- ==== Proof.KernelPieces.lean ====
/-
  What each grid point leaves in the four accumulators carried between the column tiles of a row block (the running
  maximum, the rescaled sum of exponentials, the weighted sum of logits and the count of matching labels) and, at the
  last column tile, in the output block: each is one whole-buffer store, so the buffer holds that store's value, a
  function of the point's input blocks and of what the previous point left. Stated for any float instance.
-/
import proofs.«102495_j45234595561871_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

/-- At a row block's first column tile the running maximum is the tile's row maximum taken against the initial −∞. -/
theorem sout0_A_0_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i) (x0 : Vec F S256x128 .f32) (x1 : Vec F S2048x128 .f32) (x2 : Vec F S256x1 .i32) (x3 : Vec F S1x2048 .i32) (x4 : Vec F S256x1 .f32) :
    sout0_A_0 c i arg2 harg2 arg3 harg3 arg4 harg4 arg5 harg5 arg6 harg6 arg7 harg7 arg8 harg8 arg9 harg9 arg10 harg10 arg11 harg11 hc0 hc1 x0 x1 x2 x3 x4 = k0_pay1 (k0_pay9 (k0_pay8 x0 x1 x2 x3 x4) k0_pay3) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At the first column tile the running sum of exponentials starts from the initial zero, rescaled from the initial −∞. -/
theorem sout0_A_1_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i) (x0 : Vec F S256x128 .f32) (x1 : Vec F S2048x128 .f32) (x2 : Vec F S256x1 .i32) (x3 : Vec F S1x2048 .i32) (x4 : Vec F S256x1 .f32) :
    sout0_A_1 c i arg2 harg2 arg3 harg3 arg4 harg4 arg5 harg5 arg6 harg6 arg7 harg7 arg8 harg8 arg9 harg9 arg10 harg10 arg11 harg11 hc0 hc1 x0 x1 x2 x3 x4 = k0_pay10 (k0_pay8 x0 x1 x2 x3 x4) k0_pay3 k0_pay3 k0_pay4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At the first column tile the weighted sum of logits starts from zero. -/
theorem sout0_A_2_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i) (x0 : Vec F S256x128 .f32) (x1 : Vec F S2048x128 .f32) (x2 : Vec F S256x1 .i32) (x3 : Vec F S1x2048 .i32) (x4 : Vec F S256x1 .f32) :
    sout0_A_2 c i arg2 harg2 arg3 harg3 arg4 harg4 arg5 harg5 arg6 harg6 arg7 harg7 arg8 harg8 arg9 harg9 arg10 harg10 arg11 harg11 hc0 hc1 x0 x1 x2 x3 x4 = k0_pay12 (k0_pay7 x2 x3) (k0_pay8 x0 x1 x2 x3 x4) k0_pay5 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At the first column tile the count of matching labels starts from zero. -/
theorem sout0_A_3_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i) (x0 : Vec F S256x128 .f32) (x1 : Vec F S2048x128 .f32) (x2 : Vec F S256x1 .i32) (x3 : Vec F S1x2048 .i32) (x4 : Vec F S256x1 .f32) :
    sout0_A_3 c i arg2 harg2 arg3 harg3 arg4 harg4 arg5 harg5 arg6 harg6 arg7 harg7 arg8 harg8 arg9 harg9 arg10 harg10 arg11 harg11 hc0 hc1 x0 x1 x2 x3 x4 = k0_pay13 (k0_pay7 x2 x3) k0_pay6 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At a later column tile the running maximum is the tile's row maximum against the maximum so far. -/
theorem sout0_B_0_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i) (x0 : Vec F S256x128 .f32) (x1 : Vec F S2048x128 .f32) (x2 : Vec F S256x1 .i32) (x3 : Vec F S1x2048 .i32) (x4 : Vec F S256x1 .f32) (xs0 : Vec F S256x1 .f32) (xs1 : Vec F S256x1 .f32) (xs2 : Vec F S256x1 .f32) (xs3 : Vec F S256x1 .f32) :
    sout0_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay1 (k0_pay9 (k0_pay8 x0 x1 x2 x3 x4) xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At a later column tile the sum of exponentials so far is rescaled to the new maximum and the tile's exponentials are added. -/
theorem sout0_B_1_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i) (x0 : Vec F S256x128 .f32) (x1 : Vec F S2048x128 .f32) (x2 : Vec F S256x1 .i32) (x3 : Vec F S1x2048 .i32) (x4 : Vec F S256x1 .f32) (xs0 : Vec F S256x1 .f32) (xs1 : Vec F S256x1 .f32) (xs2 : Vec F S256x1 .f32) (xs3 : Vec F S256x1 .f32) :
    sout0_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay10 (k0_pay8 x0 x1 x2 x3 x4) xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At a later column tile the tile's weighted logits are added to the weighted sum so far. -/
theorem sout0_B_2_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i) (x0 : Vec F S256x128 .f32) (x1 : Vec F S2048x128 .f32) (x2 : Vec F S256x1 .i32) (x3 : Vec F S1x2048 .i32) (x4 : Vec F S256x1 .f32) (xs0 : Vec F S256x1 .f32) (xs1 : Vec F S256x1 .f32) (xs2 : Vec F S256x1 .f32) (xs3 : Vec F S256x1 .f32) :
    sout0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay12 (k0_pay7 x2 x3) (k0_pay8 x0 x1 x2 x3 x4) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At a later column tile the tile's matching labels are added to the count so far. -/
theorem sout0_B_3_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i) (x0 : Vec F S256x128 .f32) (x1 : Vec F S2048x128 .f32) (x2 : Vec F S256x1 .i32) (x3 : Vec F S1x2048 .i32) (x4 : Vec F S256x1 .f32) (xs0 : Vec F S256x1 .f32) (xs1 : Vec F S256x1 .f32) (xs2 : Vec F S256x1 .f32) (xs3 : Vec F S256x1 .f32) :
    sout0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay13 (k0_pay7 x2 x3) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At a later column tile the running maximum is the tile's row maximum against the maximum so far. -/
theorem sout0_C_0_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i) (x0 : Vec F S256x128 .f32) (x1 : Vec F S2048x128 .f32) (x2 : Vec F S256x1 .i32) (x3 : Vec F S1x2048 .i32) (x4 : Vec F S256x1 .f32) (xs0 : Vec F S256x1 .f32) (xs1 : Vec F S256x1 .f32) (xs2 : Vec F S256x1 .f32) (xs3 : Vec F S256x1 .f32) :
    sout0_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay1 (k0_pay9 (k0_pay8 x0 x1 x2 x3 x4) xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At a later column tile the sum of exponentials so far is rescaled to the new maximum and the tile's exponentials are added. -/
theorem sout0_C_1_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i) (x0 : Vec F S256x128 .f32) (x1 : Vec F S2048x128 .f32) (x2 : Vec F S256x1 .i32) (x3 : Vec F S1x2048 .i32) (x4 : Vec F S256x1 .f32) (xs0 : Vec F S256x1 .f32) (xs1 : Vec F S256x1 .f32) (xs2 : Vec F S256x1 .f32) (xs3 : Vec F S256x1 .f32) :
    sout0_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay10 (k0_pay8 x0 x1 x2 x3 x4) xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At a later column tile the tile's weighted logits are added to the weighted sum so far. -/
theorem sout0_C_2_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i) (x0 : Vec F S256x128 .f32) (x1 : Vec F S2048x128 .f32) (x2 : Vec F S256x1 .i32) (x3 : Vec F S1x2048 .i32) (x4 : Vec F S256x1 .f32) (xs0 : Vec F S256x1 .f32) (xs1 : Vec F S256x1 .f32) (xs2 : Vec F S256x1 .f32) (xs3 : Vec F S256x1 .f32) :
    sout0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay12 (k0_pay7 x2 x3) (k0_pay8 x0 x1 x2 x3 x4) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At a later column tile the tile's matching labels are added to the count so far. -/
theorem sout0_C_3_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i) (x0 : Vec F S256x128 .f32) (x1 : Vec F S2048x128 .f32) (x2 : Vec F S256x1 .i32) (x3 : Vec F S1x2048 .i32) (x4 : Vec F S256x1 .f32) (xs0 : Vec F S256x1 .f32) (xs1 : Vec F S256x1 .f32) (xs2 : Vec F S256x1 .f32) (xs3 : Vec F S256x1 .f32) :
    sout0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay13 (k0_pay7 x2 x3) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]
/-- At a row block's last column tile the output block is the row loss of the four accumulators as the tile leaves them. -/
theorem out0_C_5_eq (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i) (x0 : Vec F S256x128 .f32) (x1 : Vec F S2048x128 .f32) (x2 : Vec F S256x1 .i32) (x3 : Vec F S1x2048 .i32) (x4 : Vec F S256x1 .f32) (xs0 : Vec F S256x1 .f32) (xs1 : Vec F S256x1 .f32) (xs2 : Vec F S256x1 .f32) (xs3 : Vec F S256x1 .f32) :
    out0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay2 (k0_pay13 (k0_pay7 x2 x3) xs3) (k0_pay10 (k0_pay8 x0 x1 x2 x3 x4) xs0 xs0 xs1) x4 (k0_pay12 (k0_pay7 x2 x3) (k0_pay8 x0 x1 x2 x3 x4) xs2) (k0_pay1 (k0_pay9 (k0_pay8 x0 x1 x2 x3 x4) xs0)) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first | rw [View.canon_unit_zero hz] | rw [View.canon_cons_unit_zero (S := S256x1) hz]
  simp only [View.readCov_unit_zero (S := S256x1) _ hz, View.readAt_eq_ld, harg2.read_unread, harg3.read_unread, harg4.read_unread, harg5.read_unread, harg6.read_unread, harg7.read_unread, harg8.read_unread, harg9.read_unread, harg10.read_unread, harg11.read_unread, View.ld_unit_zero (S := S256x1) hz, View.ld_unit_zero (S := S256x128) hz, View.ld_unit_zero (S := S2048x128) hz, View.ld_unit_zero (S := S1x2048) hz]

end Cert.KernelIdeal.Pieces

end
-- ==== Proof.Consts.lean ====
/-
  The float literals of the two programs as the extended reals their bit patterns denote. Each finite pattern is
  sign · significand · 2^exponent; the significands are kept as integers so that the relations the proof needs —
  the kernel's 1.4 and 0.6 are exact doublings of the reference's 0.7 and 0.3, and the reference's 0.07 is the
  rational whose reciprocal the kernel's named temperature factor denotes — are plain arithmetic.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_neg_inf : Ideal.ofBits .f32 0xFF800000#32 = ⊥ := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

/-- 0.7 as the reference spells it. -/
theorem ofBits_c07 : Ideal.ofBits .f32 0x3F333333#32 = ((11744051 / 16777216 : ℝ) : EReal) := by
  simp [Ideal.ofBits, Ideal.ieee, -EReal.coe_mul]; norm_num

/-- 1.4 as the kernel spells it: twice the reference's 0.7. -/
theorem ofBits_c14 : Ideal.ofBits .f32 0x3FB33333#32 = ((2 * (11744051 / 16777216) : ℝ) : EReal) := by
  simp [Ideal.ofBits, Ideal.ieee, -EReal.coe_mul]; norm_num

/-- 0.3 as the reference spells it. -/
theorem ofBits_c03 : Ideal.ofBits .f32 0x3E99999A#32 = ((10066330 / 33554432 : ℝ) : EReal) := by
  simp [Ideal.ofBits, Ideal.ieee, -EReal.coe_mul]; norm_num

/-- 0.6 as the kernel spells it: twice the reference's 0.3. -/
theorem ofBits_c06 : Ideal.ofBits .f32 0x3F19999A#32 = ((2 * (10066330 / 33554432) : ℝ) : EReal) := by
  simp [Ideal.ofBits, Ideal.ieee, -EReal.coe_mul]; norm_num

/-- 0.9 -/
theorem ofBits_c09 : Ideal.ofBits .f32 0x3F666666#32 = ((15099494 / 16777216 : ℝ) : EReal) := by
  simp [Ideal.ofBits, Ideal.ieee, -EReal.coe_mul]; norm_num

/-- 0.1 -/
theorem ofBits_c01 : Ideal.ofBits .f32 0x3DCCCCCD#32 = ((13421773 / 134217728 : ℝ) : EReal) := by
  simp [Ideal.ofBits, Ideal.ieee, -EReal.coe_mul]; norm_num

/-- 0.01 -/
theorem ofBits_c001 : Ideal.ofBits .f32 0x3C23D70A#32 = ((10737418 / 1073741824 : ℝ) : EReal) := by
  simp [Ideal.ofBits, Ideal.ieee, -EReal.coe_mul]; norm_num

/-- 0.07 as the reference spells it. -/
theorem ofBits_c007 : Ideal.ofBits .f32 0x3D8F5C29#32 = ((9395241 / 134217728 : ℝ) : EReal) := by
  simp [Ideal.ofBits, Ideal.ieee, -EReal.coe_mul]; norm_num

/-- 1e-8 -/
theorem ofBits_c1e8 : Ideal.ofBits .f32 0x322BCC77#32 = ((11258999 / 1125899906842624 : ℝ) : EReal) := by
  simp [Ideal.ofBits, Ideal.ieee, -EReal.coe_mul]; norm_num

end Cert.Consts

end
-- ==== Proof.Entry.lean ====
/-
  One entry of the logit matrix, on both sides, as one real number.

  For a raw similarity `d` (the dot product of a row of the online features with a row of the offline features), a row
  confidence `cf` and a label-match bit `b`, the kernel forms
      pre = b ? 1.4·d + 0.6·cf : (1.4 + 0.6·cf) − 1.4·d,   w = 0.1 + 0.9·σ(pre) + 0.01,   logit = d·(w·K)
  and the reference forms
      fc = b ? d : 1 − d,   pre' = (0.7·fc + 0.3·cf)·2,   w' = 0.1 + 0.9·(1/(1 + e^(−pre'))) + 0.01,   logit' = d / (0.07 / w').
  The kernel's 1.4 and 0.6 are exactly twice the reference's 0.7 and 0.3, so pre = pre' over the reals; σ is the same
  function; w > 0; and K denotes the reciprocal of the reference's 0.07, so d·(w·K) = d / (0.07 / w). Both logits are
  the real number `simReal b d cf`. The match bit as a float weight is 1 or 0 on both sides (`wReal`).
-/
import proofs.«102495_j45234595561871_2_alg».proof.Proof.Consts
import Idealize.ShloMosaic.PureOps.Ideal.Laws

noncomputable section

namespace Cert.Entry

open Idealize.ShloMosaic

/-- The reference's 0.7, 0.3, 0.9, 0.1, 0.01, 0.07 as reals. -/
def c07 : ℝ := 11744051 / 16777216
def c03 : ℝ := 10066330 / 33554432
def c09 : ℝ := 15099494 / 16777216
def c01 : ℝ := 13421773 / 134217728
def c001 : ℝ := 10737418 / 1073741824
def c007 : ℝ := 9395241 / 134217728

/-- The argument of the sigmoid. -/
def preReal (b : BitVec 1) (d cf : ℝ) : ℝ :=
  if b = 1#1 then 2 * c07 * d + 2 * c03 * cf else (2 * c07 + 2 * c03 * cf) - 2 * c07 * d

/-- The confidence weight plus epsilon: positive. -/
def wgt (b : BitVec 1) (d cf : ℝ) : ℝ := c01 + c09 * (1 + Real.exp (-(preReal b d cf)))⁻¹ + c001

theorem wgt_pos (b : BitVec 1) (d cf : ℝ) : 0 < wgt b d cf := by
  unfold wgt c01 c09 c001
  have h : 0 < (1 + Real.exp (-(preReal b d cf)))⁻¹ := inv_pos.mpr (by positivity)
  positivity

/-- The logit. -/
def simReal (b : BitVec 1) (d cf : ℝ) : ℝ := d * (wgt b d cf * (134217728 / 9395241))

/-- The kernel's logit, as its operations spell it at the ideal instance (`K` the named temperature factor). -/
def simKer (K : EReal) (b : BitVec 1) (d cf : EReal) : EReal :=
  d * (((Ideal.ofBits .f32 0x3DCCCCCD#32 + Ideal.ofBits .f32 0x3F666666#32 * Ideal.logistic (Scalar.select b
    (Ideal.ofBits .f32 0x3FB33333#32 * d + Ideal.ofBits .f32 0x3F19999A#32 * cf)
    ((Ideal.ofBits .f32 0x3FB33333#32 + Ideal.ofBits .f32 0x3F19999A#32 * cf) - Ideal.ofBits .f32 0x3FB33333#32 * d)))
    + Ideal.ofBits .f32 0x3C23D70A#32) * K)

/-- The reference's logit, as its operations spell it at the ideal instance. -/
def simRef (b : BitVec 1) (d cf : EReal) : EReal :=
  Ideal.div d (Ideal.div (Ideal.ofBits .f32 0x3D8F5C29#32) ((Ideal.ofBits .f32 0x3DCCCCCD#32 + Ideal.ofBits .f32 0x3F666666#32 *
    Ideal.div (Ideal.ofBits .f32 0x3F800000#32) (Ideal.ofBits .f32 0x3F800000#32 + Ideal.exp (-(((Ideal.ofBits .f32 0x3F333333#32 *
      Scalar.select b d (Ideal.ofBits .f32 0x3F800000#32 - d)) + Ideal.ofBits .f32 0x3E99999A#32 * cf) * Ideal.ofBits .f32 0x40000000#32))))
    + Ideal.ofBits .f32 0x3C23D70A#32))

theorem e_c07 : Ideal.ofBits .f32 0x3F333333#32 = ((c07 : ℝ) : EReal) := Consts.ofBits_c07
theorem e_c14 : Ideal.ofBits .f32 0x3FB33333#32 = ((2 * c07 : ℝ) : EReal) := Consts.ofBits_c14
theorem e_c03 : Ideal.ofBits .f32 0x3E99999A#32 = ((c03 : ℝ) : EReal) := Consts.ofBits_c03
theorem e_c06 : Ideal.ofBits .f32 0x3F19999A#32 = ((2 * c03 : ℝ) : EReal) := Consts.ofBits_c06
theorem e_c09 : Ideal.ofBits .f32 0x3F666666#32 = ((c09 : ℝ) : EReal) := Consts.ofBits_c09
theorem e_c01 : Ideal.ofBits .f32 0x3DCCCCCD#32 = ((c01 : ℝ) : EReal) := Consts.ofBits_c01
theorem e_c001 : Ideal.ofBits .f32 0x3C23D70A#32 = ((c001 : ℝ) : EReal) := Consts.ofBits_c001
theorem e_c007 : Ideal.ofBits .f32 0x3D8F5C29#32 = ((c007 : ℝ) : EReal) := Consts.ofBits_c007
theorem e_one : Ideal.ofBits .f32 0x3F800000#32 = ((1 : ℝ) : EReal) := Consts.ofBits_one
theorem e_two : Ideal.ofBits .f32 0x40000000#32 = ((2 : ℝ) : EReal) := Consts.ofBits_two

theorem sel_zero {α : Type} (a b : α) : Scalar.select 0#1 a b = b := if_neg (by decide)
theorem sel_one {α : Type} (a b : α) : Scalar.select 1#1 a b = a := if_pos rfl

/-- The quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul, mul_one_div]

theorem simKer_coe (b : BitVec 1) (d cf : ℝ) :
    simKer ((134217728 / 9395241 : ℝ) : EReal) b (d : EReal) (cf : EReal) = ((simReal b d cf : ℝ) : EReal) := by
  have hsel : Scalar.select b (((2 * c07 : ℝ) : EReal) * d + ((2 * c03 : ℝ) : EReal) * cf)
      ((((2 * c07 : ℝ) : EReal) + ((2 * c03 : ℝ) : EReal) * cf) - ((2 * c07 : ℝ) : EReal) * d)
        = ((preReal b d cf : ℝ) : EReal) := by
    unfold preReal
    rcases BitVec.eq_zero_or_eq_one b with h | h <;> subst h
    · rw [sel_zero, if_neg (by decide)]; simp only [EReal.coe_mul, EReal.coe_add, EReal.coe_sub]
    · rw [sel_one, if_pos rfl]; simp only [EReal.coe_mul, EReal.coe_add]
  unfold simKer
  rw [e_c01, e_c09, e_c14, e_c06, e_c001, hsel, Ideal.logistic_coe]
  unfold simReal wgt
  simp only [EReal.coe_mul, EReal.coe_add]

/-- The reference's argument of the sigmoid. -/
def preRef (b : BitVec 1) (d cf : ℝ) : ℝ := (c07 * (if b = 1#1 then d else 1 - d) + c03 * cf) * 2

theorem preRef_eq (b : BitVec 1) (d cf : ℝ) : preRef b d cf = preReal b d cf := by
  unfold preRef preReal
  rcases BitVec.eq_zero_or_eq_one b with h | h <;> subst h
  · rw [if_neg (by decide), if_neg (by decide)]; ring
  · rw [if_pos rfl, if_pos rfl]; ring

theorem simRef_coe (b : BitVec 1) (d cf : ℝ) : simRef b (d : EReal) (cf : EReal) = ((simReal b d cf : ℝ) : EReal) := by
  have hsel : Scalar.select b (d : EReal) (((1 : ℝ) : EReal) - d) = ((if b = 1#1 then d else 1 - d : ℝ) : EReal) := by
    rcases BitVec.eq_zero_or_eq_one b with h | h <;> subst h
    · rw [sel_zero, if_neg (by decide), EReal.coe_sub]
    · rw [sel_one, if_pos rfl]
  have hexp : Ideal.exp (-((((c07 : ℝ) : EReal) * ((if b = 1#1 then d else 1 - d : ℝ) : EReal) + ((c03 : ℝ) : EReal) * cf)
      * ((2 : ℝ) : EReal))) = ((Real.exp (-(preRef b d cf)) : ℝ) : EReal) := by
    rw [← Ideal.exp_coe]; unfold preRef; simp only [EReal.coe_neg, EReal.coe_mul, EReal.coe_add]
  have hpos : (1 + Real.exp (-(preRef b d cf))) ≠ 0 := by positivity
  have hw : wgt b d cf ≠ 0 := (wgt_pos b d cf).ne'
  have h007 : c007 ≠ 0 := by unfold c007; norm_num
  have hw' : c01 + c09 * (1 / (1 + Real.exp (-(preRef b d cf)))) + c001 = wgt b d cf := by
    rw [preRef_eq, one_div]; rfl
  unfold simRef
  rw [e_c007, e_c01, e_c09, e_one, e_c07, e_c03, e_two, e_c001, hsel, hexp, ← EReal.coe_add, div_coe_coe _ hpos,
    ← EReal.coe_mul, ← EReal.coe_add, ← EReal.coe_add, hw', div_coe_coe _ hw, div_coe_coe _ (div_ne_zero h007 hw)]
  congr 1
  unfold simReal c007
  field_simp

/-! ## The label-match bit as a weight -/

/-- The weight of a column: 1 where the labels match, 0 where they do not. -/
def wReal (b : BitVec 1) : ℝ := if b = 1#1 then 1 else 0

/-- The kernel's weight: the bit widened to 32 bits and read as a signed integer. -/
theorem wKer_coe (b : BitVec 1) : (((b.setWidth 32).toInt : ℝ) : EReal) = ((wReal b : ℝ) : EReal) := by
  unfold wReal
  rcases BitVec.eq_zero_or_eq_one b with h | h <;> subst h <;> simp

/-- The reference's weight: the bit read as an unsigned integer. -/
theorem wRef_coe (b : BitVec 1) : ((b.toNat : ℝ) : EReal) = ((wReal b : ℝ) : EReal) := by
  unfold wReal
  rcases BitVec.eq_zero_or_eq_one b with h | h <;> subst h <;> simp

/-- Comparing the reference's weight with one half recovers the bit. -/
theorem cmp_half (b : BitVec 1) : Ideal.cmp .ogt ((b.toNat : ℝ) : EReal) (Ideal.ofBits .f32 0x3F000000#32) = b := by
  rw [Consts.ofBits_half]
  rcases BitVec.eq_zero_or_eq_one b with h | h <;> subst h
  · have hlt : ¬ (((1 / 2 : ℝ) : EReal) < (((0 : ℕ) : ℝ) : EReal)) := by
      rw [EReal.coe_lt_coe_iff]; norm_num
    show BitVec.ofBool (decide (((1 / 2 : ℝ) : EReal) < (((0 : ℕ) : ℝ) : EReal))) = 0#1
    rw [decide_eq_false hlt]; rfl
  · have hlt : (((1 / 2 : ℝ) : EReal) < (((1 : ℕ) : ℝ) : EReal)) := by
      rw [EReal.coe_lt_coe_iff]; norm_num
    show BitVec.ofBool (decide (((1 / 2 : ℝ) : EReal) < (((1 : ℕ) : ℝ) : EReal))) = 1#1
    rw [decide_eq_true hlt]; rfl

end Cert.Entry

end
-- ==== Proof.Spec.lean ====
/-
  The mathematics of one row of the loss, over the reals.

  A row of logits arrives in consecutive tiles `s 0, s 1, …` (each a finite nonempty family of reals) with weights
  `w 0, w 1, …`. The streaming computation keeps four numbers per row: the running maximum `mx`, the running sum of
  exponentials `lsum` rescaled to the current maximum, the weighted sum of logits `spos` and the sum of weights `npos`.
  After tile `j` they are the maximum, the sum of `exp (s − max)`, the weighted sum and the weight sum over all
  tiles up to `j` (`le_mx`, `mx_attained`, `lsum_closed`, `spos_closed`, `npos_closed`), because
  `exp (m − m') · exp (x − m) = exp (x − m')`. Consequently the weighted sum of the row's log-probabilities
  `∑ c·w·((s − max) − lg)` is `c·((spos − npos·max) − npos·lg)` (`row_real`): sums distribute over the three terms.
  The last part re-indexes a row of 32768 columns as 16 tiles of 2048.
-/
import Idealize.ShloMosaic.PureOps.Ideal.Laws

noncomputable section

namespace Cert.Spec

open Idealize.ShloMosaic

/-- The coercion of a finite sum of reals is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

section Row

variable {ι : Type} [Fintype ι] [Nonempty ι]

/-- The maximum of a finite nonempty family of reals. -/
def rmax (f : ι → ℝ) : ℝ := Finset.univ.sup' Finset.univ_nonempty f

theorem le_rmax (f : ι → ℝ) (k : ι) : f k ≤ rmax f := Finset.le_sup' f (Finset.mem_univ k)

theorem rmax_attained (f : ι → ℝ) : ∃ k, rmax f = f k := by
  obtain ⟨k, _, hk⟩ := Finset.exists_mem_eq_sup' Finset.univ_nonempty f
  exact ⟨k, hk⟩

/-- Folding `max` from `⊥` over the coerced family gives the coerced maximum. -/
theorem fold_max_coe (f : ι → ℝ) :
    Finset.univ.fold max (⊥ : EReal) (fun k => (f k : EReal)) = ((rmax f : ℝ) : EReal) := by
  apply le_antisymm
  · rw [Finset.fold_max_le]
    exact ⟨bot_le, fun x _ => EReal.coe_le_coe_iff.mpr (le_rmax f x)⟩
  · obtain ⟨k, hk⟩ := rmax_attained f
    rw [Finset.le_fold_max]
    exact Or.inr ⟨k, Finset.mem_univ k, by rw [hk]⟩

variable (s w : ℕ → ι → ℝ)

/-- The running maximum after tile `j`. -/
def mx : ℕ → ℝ
  | 0 => rmax (s 0)
  | j + 1 => max (mx j) (rmax (s (j + 1)))

/-- The running sum of exponentials, rescaled to the running maximum. -/
def lsum : ℕ → ℝ
  | 0 => ∑ k, Real.exp (s 0 k - mx s 0)
  | j + 1 => Real.exp (mx s j - mx s (j + 1)) * lsum j + ∑ k, Real.exp (s (j + 1) k - mx s (j + 1))

/-- The running weighted sum of logits. -/
def spos : ℕ → ℝ
  | 0 => ∑ k, w 0 k * s 0 k
  | j + 1 => spos j + ∑ k, w (j + 1) k * s (j + 1) k

/-- The running sum of weights. -/
def npos : ℕ → ℝ
  | 0 => ∑ k, w 0 k
  | j + 1 => npos j + ∑ k, w (j + 1) k

theorem mx_mono (j : ℕ) : mx s j ≤ mx s (j + 1) := le_max_left _ _

theorem le_mx (j' j : ℕ) (h : j' ≤ j) (k : ι) : s j' k ≤ mx s j := by
  induction j with
  | zero =>
    obtain rfl : j' = 0 := Nat.le_zero.mp h
    exact le_rmax (s 0) k
  | succ j ih =>
    rcases Nat.lt_or_ge j' (j + 1) with hlt | hge
    · exact (ih (Nat.lt_succ_iff.mp hlt)).trans (mx_mono s j)
    · obtain rfl : j' = j + 1 := le_antisymm h hge
      exact (le_rmax (s (j + 1)) k).trans (le_max_right _ _)

theorem mx_attained (j : ℕ) : ∃ j', j' ≤ j ∧ ∃ k, mx s j = s j' k := by
  induction j with
  | zero =>
    obtain ⟨k, hk⟩ := rmax_attained (s 0)
    exact ⟨0, le_rfl, k, hk⟩
  | succ j ih =>
    rcases max_cases (mx s j) (rmax (s (j + 1))) with ⟨h, _⟩ | ⟨h, _⟩
    · obtain ⟨j', hj', k, hk⟩ := ih
      exact ⟨j', Nat.le_succ_of_le hj', k, (show mx s (j + 1) = _ from h).trans hk⟩
    · obtain ⟨k, hk⟩ := rmax_attained (s (j + 1))
      exact ⟨j + 1, le_rfl, k, (show mx s (j + 1) = _ from h).trans hk⟩

theorem lsum_closed (j : ℕ) : lsum s j = ∑ j' ∈ Finset.range (j + 1), ∑ k, Real.exp (s j' k - mx s j) := by
  induction j with
  | zero => simp [lsum]
  | succ j ih =>
    rw [Finset.sum_range_succ, show lsum s (j + 1) = Real.exp (mx s j - mx s (j + 1)) * lsum s j
      + ∑ k, Real.exp (s (j + 1) k - mx s (j + 1)) from rfl, ih, Finset.mul_sum]
    congr 1
    refine Finset.sum_congr rfl fun j' _ => ?_
    rw [Finset.mul_sum]
    refine Finset.sum_congr rfl fun k _ => ?_
    rw [← Real.exp_add]
    congr 1
    ring

theorem spos_closed (j : ℕ) : spos s w j = ∑ j' ∈ Finset.range (j + 1), ∑ k, w j' k * s j' k := by
  induction j with
  | zero => simp [spos]
  | succ j ih => rw [Finset.sum_range_succ, ← ih]; rfl

theorem npos_closed (j : ℕ) : npos w j = ∑ j' ∈ Finset.range (j + 1), ∑ k, w j' k := by
  induction j with
  | zero => simp [npos]
  | succ j ih => rw [Finset.sum_range_succ, ← ih]; rfl

/-- The weighted sum of the row's log-probabilities, from the four running numbers. -/
theorem row_real (c lg : ℝ) (j : ℕ) :
    c * ((spos s w j - npos w j * mx s j) - npos w j * lg)
      = ∑ j' ∈ Finset.range (j + 1), ∑ k, (c * w j' k) * ((s j' k - mx s j) - lg) := by
  rw [spos_closed, npos_closed]
  simp only [Finset.mul_sum, Finset.sum_mul, ← Finset.sum_sub_distrib]
  refine Finset.sum_congr rfl fun j' _ => Finset.sum_congr rfl fun k _ => ?_
  ring

end Row

/-! ## A row of 32768 columns as 16 tiles of 2048 -/

/-- Column `2048·j + k` of a row (read modulo the row length, so that every `j` has a tile). -/
def tile {α : Type} (g : Fin 32768 → α) (j : ℕ) (k : Fin 2048) : α :=
  g ⟨(2048 * j + k.val) % 32768, Nat.mod_lt _ (by norm_num)⟩

theorem tile_div_mod {α : Type} (g : Fin 32768 → α) (q : Fin 32768) :
    tile g (q.val / 2048) ⟨q.val % 2048, Nat.mod_lt _ (by norm_num)⟩ = g q := by
  unfold tile
  congr 1
  apply Fin.ext
  show (2048 * (q.val / 2048) + q.val % 2048) % 32768 = q.val
  have := q.isLt
  omega

/-- A sum over the row is the sum over the tiles of the sums within each tile. -/
theorem sum_tiles {M : Type} [AddCommMonoid M] (f : Fin 32768 → M) :
    ∑ q, f q = ∑ j ∈ Finset.range 16, ∑ k : Fin 2048, tile f j k := by
  rw [← Fin.sum_univ_eq_sum_range (fun j => ∑ k : Fin 2048, tile f j k) 16, ← Fintype.sum_prod_type']
  rw [← Equiv.sum_comp (finProdFinEquiv : Fin 16 × Fin 2048 ≃ Fin (16 * 2048)) f]
  refine Finset.sum_congr rfl fun p _ => ?_
  unfold tile
  congr 1
  apply Fin.ext
  show p.2.val + 2048 * p.1.val = (2048 * p.1.val + p.2.val) % 32768
  have h1 := p.1.isLt
  have h2 := p.2.isLt
  omega

/-- The maximum over the row is the running maximum after the last tile. -/
theorem fold_max_row (g : Fin 32768 → ℝ) :
    Finset.univ.fold max (⊥ : EReal) (fun q => (g q : EReal)) = ((mx (tile g) 15 : ℝ) : EReal) := by
  apply le_antisymm
  · rw [Finset.fold_max_le]
    refine ⟨bot_le, fun q _ => EReal.coe_le_coe_iff.mpr ?_⟩
    rw [← tile_div_mod g q]
    exact le_mx (tile g) _ 15 (by have := q.isLt; omega) _
  · obtain ⟨j', _, k, hk⟩ := mx_attained (tile g) 15
    rw [Finset.le_fold_max]
    exact Or.inr ⟨_, Finset.mem_univ _, by rw [hk]; exact le_rfl⟩

end Cert.Spec

end
-- ==== Proof.Steps.lean ====
/-
  The accumulator updates and the row loss over the extended reals, for real data.

  Each update of the four running numbers, written with the extended-real operations the kernel applies, takes coerced
  reals to the coerced real update of `Spec` (the first tile starts from −∞ and from zeros: `exp (−∞ − m) · 0 = 0`).
  The row loss the kernel forms from the four numbers after the last tile equals the row loss the reference forms from
  the whole row (`loss_eq`): the row maximum is the running maximum, the sum of exponentials is the running sum, which
  is positive, so its logarithm (after adding the positive epsilon) is real, and the weighted sum of log-probabilities
  distributes (`Spec.row_real`).
-/
import proofs.«102495_j45234595561871_2_alg».proof.Proof.Spec
import proofs.«102495_j45234595561871_2_alg».proof.Proof.Consts

noncomputable section

namespace Cert.Steps

open Idealize.ShloMosaic Cert.Spec

section Tile

variable {ι : Type} [Fintype ι] [Nonempty ι]

theorem step_max (a : ℝ) (row : ι → ℝ) :
    max ((a : ℝ) : EReal) (Finset.univ.fold max (Ideal.ofBits .f32 0xFF800000#32) (fun k => ((row k : ℝ) : EReal)))
      = ((max a (rmax row) : ℝ) : EReal) := by
  rw [Consts.ofBits_neg_inf, fold_max_coe]
  exact (EReal.coe_strictMono.monotone.map_max).symm

theorem init_max (row : ι → ℝ) :
    max (Ideal.ofBits .f32 0xFF800000#32) (Finset.univ.fold max (Ideal.ofBits .f32 0xFF800000#32) (fun k => ((row k : ℝ) : EReal)))
      = ((rmax row : ℝ) : EReal) := by
  rw [Consts.ofBits_neg_inf, fold_max_coe, max_eq_right bot_le]

theorem step_l (a M' l : ℝ) (row : ι → ℝ) :
    Ideal.exp (((a : ℝ) : EReal) - ((M' : ℝ) : EReal)) * ((l : ℝ) : EReal) + ∑ k, Ideal.exp (((row k : ℝ) : EReal) - ((M' : ℝ) : EReal))
      = ((Real.exp (a - M') * l + ∑ k, Real.exp (row k - M') : ℝ) : EReal) := by
  simp only [← EReal.coe_sub, Ideal.exp_coe, EReal.coe_add, EReal.coe_mul, coe_sum]

theorem init_l (M' : ℝ) (row : ι → ℝ) :
    Ideal.exp (Ideal.ofBits .f32 0xFF800000#32 - ((M' : ℝ) : EReal)) * Ideal.ofBits .f32 0x00000000#32
        + ∑ k, Ideal.exp (((row k : ℝ) : EReal) - ((M' : ℝ) : EReal))
      = ((∑ k, Real.exp (row k - M') : ℝ) : EReal) := by
  rw [Consts.ofBits_neg_inf, Consts.ofBits_zero, mul_zero, zero_add]
  simp only [← EReal.coe_sub, Ideal.exp_coe, coe_sum]

theorem step_s (sp : ℝ) (w row : ι → ℝ) :
    ((sp : ℝ) : EReal) + ∑ k, ((w k : ℝ) : EReal) * ((row k : ℝ) : EReal) = ((sp + ∑ k, w k * row k : ℝ) : EReal) := by
  simp only [EReal.coe_add, EReal.coe_mul, coe_sum]

theorem init_s (w row : ι → ℝ) :
    Ideal.ofBits .f32 0x00000000#32 + ∑ k, ((w k : ℝ) : EReal) * ((row k : ℝ) : EReal) = ((∑ k, w k * row k : ℝ) : EReal) := by
  rw [Consts.ofBits_zero, zero_add]
  simp only [EReal.coe_mul, coe_sum]

theorem step_n (np : ℝ) (w : ι → ℝ) :
    ((np : ℝ) : EReal) + ∑ k, ((w k : ℝ) : EReal) = ((np + ∑ k, w k : ℝ) : EReal) := by
  simp only [EReal.coe_add, coe_sum]

theorem init_n (w : ι → ℝ) :
    Ideal.ofBits .f32 0x00000000#32 + ∑ k, ((w k : ℝ) : EReal) = ((∑ k, w k : ℝ) : EReal) := by
  rw [Consts.ofBits_zero, zero_add]
  simp only [coe_sum]

end Tile

/-- The row loss as the kernel forms it from a row's confidence and its four numbers after the last tile. -/
def lossK (cf m l sp np : EReal) : EReal :=
  Ideal.div (Ideal.ofBits .f32 0x00000000#32 - cf * ((sp - np * m) - np * Ideal.log (l + Ideal.ofBits .f32 0x322BCC77#32)))
    (Scalar.select (Ideal.cmp .olt np (Ideal.ofBits .f32 0x358637BD#32)) (Ideal.ofBits .f32 0x3F800000#32) np)

/-- The row loss as the reference forms it from a row's confidence, logits and weights. -/
def lossR (cf : EReal) (s w : Fin 32768 → EReal) : EReal :=
  Ideal.div (-(Ideal.ofBits .f32 0x00000000#32 + ∑ q, (cf * w q) *
      ((s q - Finset.univ.fold max (Ideal.ofBits .f32 0xFF800000#32) s)
        - Ideal.log ((Ideal.ofBits .f32 0x00000000#32
            + ∑ q', Ideal.exp (s q' - Finset.univ.fold max (Ideal.ofBits .f32 0xFF800000#32) s)) + Ideal.ofBits .f32 0x322BCC77#32))))
    (Scalar.select (Ideal.cmp .olt (Ideal.ofBits .f32 0x00000000#32 + ∑ q, w q) (Ideal.ofBits .f32 0x358637BD#32))
      (Ideal.ofBits .f32 0x3F800000#32) (Ideal.ofBits .f32 0x00000000#32 + ∑ q, w q))

instance : Nonempty (Fin 2048) := ⟨0⟩

theorem lsum_pos (s : ℕ → Fin 2048 → ℝ) (j : ℕ) : 0 < lsum s j := by
  rw [lsum_closed]
  refine Finset.sum_pos (fun j' _ => Finset.sum_pos (fun k _ => Real.exp_pos _) Finset.univ_nonempty) ?_
  exact ⟨0, Finset.mem_range.mpr (Nat.succ_pos j)⟩

/-- The two row losses agree on real data. -/
theorem loss_eq (c : ℝ) (s w : Fin 32768 → ℝ) :
    lossK (c : EReal) ((mx (tile s) 15 : ℝ) : EReal) ((lsum (tile s) 15 : ℝ) : EReal)
        ((spos (tile s) (tile w) 15 : ℝ) : EReal) ((npos (tile w) 15 : ℝ) : EReal)
      = lossR (c : EReal) (fun q => ((s q : ℝ) : EReal)) (fun q => ((w q : ℝ) : EReal)) := by
  have hM : Finset.univ.fold max (Ideal.ofBits .f32 0xFF800000#32) (fun q => ((s q : ℝ) : EReal)) = ((mx (tile s) 15 : ℝ) : EReal) := by
    rw [Consts.ofBits_neg_inf, fold_max_row]
  have hL : Ideal.ofBits .f32 0x00000000#32 + ∑ q, Ideal.exp (((s q : ℝ) : EReal) - ((mx (tile s) 15 : ℝ) : EReal))
      = ((lsum (tile s) 15 : ℝ) : EReal) := by
    rw [Consts.ofBits_zero, zero_add, lsum_closed]
    simp only [← EReal.coe_sub, Ideal.exp_coe, ← coe_sum]
    exact congrArg _ (sum_tiles (fun q => Real.exp (s q - mx (tile s) 15)))
  have hN : Ideal.ofBits .f32 0x00000000#32 + ∑ q, ((w q : ℝ) : EReal) = ((npos (tile w) 15 : ℝ) : EReal) := by
    rw [Consts.ofBits_zero, zero_add, npos_closed, ← coe_sum]
    exact congrArg _ (sum_tiles w)
  have hpos : 0 < lsum (tile s) 15 + 11258999 / 1125899906842624 := by
    have := lsum_pos (tile s) 15
    positivity
  have hlog : Ideal.log (((lsum (tile s) 15 : ℝ) : EReal) + Ideal.ofBits .f32 0x322BCC77#32)
      = ((Real.log (lsum (tile s) 15 + 11258999 / 1125899906842624) : ℝ) : EReal) := by
    rw [Consts.ofBits_c1e8, ← EReal.coe_add, Ideal.log_coe, if_neg (not_le.mpr hpos)]
  have hX : ∑ q, (((c : ℝ) : EReal) * ((w q : ℝ) : EReal)) * ((((s q : ℝ) : EReal) - ((mx (tile s) 15 : ℝ) : EReal))
        - ((Real.log (lsum (tile s) 15 + 11258999 / 1125899906842624) : ℝ) : EReal))
      = ((c * ((spos (tile s) (tile w) 15 - npos (tile w) 15 * mx (tile s) 15)
          - npos (tile w) 15 * Real.log (lsum (tile s) 15 + 11258999 / 1125899906842624)) : ℝ) : EReal) := by
    rw [row_real]
    simp only [← EReal.coe_sub, ← EReal.coe_mul, ← coe_sum]
    exact congrArg _ (sum_tiles (fun q => (c * w q) * ((s q - mx (tile s) 15)
      - Real.log (lsum (tile s) 15 + 11258999 / 1125899906842624))))
  unfold lossK lossR
  rw [hM, hL, hN, hlog, hX, Consts.ofBits_zero, zero_add, zero_sub]
  simp only [← EReal.coe_sub, ← EReal.coe_mul]

end Cert.Steps

end
-- ==== Proof.LibColumn.lean ====
/-
  Keepdims columns: a vector of length `a` cast to the one-column matrix `[a, 1]`, and a one-column matrix
  `[a, 1]` broadcast along its rows to `[a, b]`, each read at an index given by its coordinates. (A row-wise
  reduction kept as a column and broadcast back over the row — a row maximum or a row sum subtracted from or
  divided into every entry of the row — is read through these two.)
-/
import Idealize.ShloMosaic.Lib.ValueIdx
import Idealize.ShloMosaic.Lib.Pipeline.Value

noncomputable section

namespace Cert.LibColumn

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.KernelEntry.lean ====
/-
  The kernel body's values read at an index, at the ideal instance.

  A grid point sees a block of 256 online rows and a tile of 2048 offline rows. Entry (r, k) of the point's logit tile is
  the logit of the dot product of online row r with offline row k, the row's confidence and the label-match bit
  (`logits_apply`); the four accumulator updates and the final row loss are read at row r as the operations they are:
  a maximum against a row maximum, a rescaled sum plus a row sum of exponentials, sums of weighted logits and of weights.
-/
import proofs.«102495_j45234595561871_2_alg».proof.Proof.Gen.KernelIdeal.Skeleton
import proofs.«102495_j45234595561871_2_alg».proof.Proof.Entry
import proofs.«102495_j45234595561871_2_alg».proof.Proof.Steps
import proofs.«102495_j45234595561871_2_alg».proof.Proof.LibColumn
import proofs.«102495_j45234595561871_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open Idealize.ShloMosaic Idealize.ShloMosaic.ValueIdx

namespace Cert.KernelIdeal.EntryK

open Cert.KernelIdeal Cert.KernelIdeal.Gen

/-- The named temperature factor denotes the reciprocal of the reference's 0.07. -/
theorem named_K : Named.named (F := Ideal) Cert.KernelIdeal.κ "inv_base_temp" (φ := .f32) 0x41649249#32
    = ((134217728 / 9395241 : ℝ) : EReal) :=
  IdealRules.named_const.ideal_named_scalar _ _ _ _ rfl

/-- Column `k` put back into row `r`: the index (r, k). -/
theorem lift_row (r : Fin 256) (k : Fin 2048) :
    Facts₀.reduces_S256x2048_S256.lift (ix1 r) k = ix2 r k := by
  funext a
  apply Fin.ext
  match a with
  | ⟨0, _⟩ => rfl
  | ⟨1, _⟩ => rfl

/-- A row maximum from −∞. -/
theorem rowmax_apply (src : FVec Ideal S256x2048 .f32) (r : Fin 256) :
    multiReduction .maximumf [1] S256 src 0xFF800000#32 Facts₀.reduces_S256x2048_S256 (.inl rfl) rfl (ix1 r)
      = Finset.univ.fold max (Ideal.ofBits .f32 0xFF800000#32) (fun k : Fin 2048 => src (ix2 r k)) :=
  (Ideal.multiReduction_maximumf_single src 0xFF800000#32 Facts₀.reduces_S256x2048_S256 (.inl rfl) rfl (ix1 r)).trans (by
    congr 1; funext k; exact congrArg src (lift_row r k))

/-- A row sum. -/
theorem rowsum_apply (src : FVec Ideal S256x2048 .f32) (r : Fin 256) :
    multiReduction .add [1] S256 src 0x00000000#32 Facts₀.reduces_S256x2048_S256 (.inl rfl) rfl (ix1 r)
      = ∑ k : Fin 2048, src (ix2 r k) :=
  (Ideal.multiReduction_add_single src 0x00000000#32 Facts₀.reduces_S256x2048_S256 (.inl rfl) rfl (ix1 r)).trans (by
    refine Finset.sum_congr rfl fun k _ => congrArg src (lift_row r k))

variable (x0 : Vec Ideal S256x128 .f32) (x1 : Vec Ideal S2048x128 .f32) (x2 : Vec Ideal S256x1 .i32)
  (x3 : Vec Ideal S1x2048 .i32) (x4 : Vec Ideal S256x1 .f32)

/-- The label-match bit of online row `r` and offline row `k` of the point's blocks. -/
def bitK (r : Fin 256) (k : Fin 2048) : BitVec 1 := IntOp.cmpi .eq (x2 (ix2 r (0 : Fin 1))) (x3 (ix2 (0 : Fin 1) k))

/-- The dot product of online row `r` with offline row `k` of the point's blocks. -/
def dotK (r : Fin 256) (k : Fin 2048) : EReal := ∑ a : Fin 128, x0 (ix2 r a) * x1 (ix2 k a)

theorem mask_apply (r : Fin 256) (k : Fin 2048) : k0_pay7 (F := Ideal) x2 x3 (ix2 r k) = bitK x2 x3 r k := by
  unfold k0_pay7 bitK
  show IntOp.cmpi .eq (broadcastTo S256x2048 (shapeCast S256x1 x2 Facts₀.shapeCasts_S256x1_S256x1) Facts₀.broadcasts_S256x1_S256x2048 (ix2 r k))
    (broadcastTo S256x2048 (shapeCast S1x2048 x3 Facts₀.shapeCasts_S1x2048_S1x2048) Facts₀.broadcasts_S1x2048_S256x2048 (ix2 r k)) = _
  rw [LibColumn.broadcastTo_a1_ab_apply, broadcastTo_1b_ab_apply, shapeCast_self, shapeCast_self]

theorem dot_apply (r : Fin 256) (k : Fin 2048) :
    matmul (F := Ideal) (φ₁ := .f32) (φ₂ := .f32) dot_S256x128_S128x2048_S256x2048_1_0_0_1_n_n (some .fp32) x0
      (transpose (α := Ideal .f32) S128x2048 [1, 0] x1 Facts₀.transposes_S2048x128_p1_0_S128x2048) (constant S256x2048 .f32 0x00000000#32) (ix2 r k)
      = dotK x0 x1 r k := by
  unfold dotK
  refine (Ideal.matmul_constant_zero_apply _ _ _ _ _).trans ?_
  refine (Cert.LibPlainDot.sum_plain dot_S256x128_S128x2048_S256x2048_1_0_0_1_n_n rfl rfl rfl rfl rfl rfl x0 _ r k).trans ?_
  refine Finset.sum_congr rfl fun a _ => ?_
  rw [transpose_ix2_apply]

/-- Entry (r, k) of the point's logit tile. -/
theorem logits_apply (r : Fin 256) (k : Fin 2048) :
    k0_pay8 (F := Ideal) x0 x1 x2 x3 x4 (ix2 r k)
      = Entry.simKer ((134217728 / 9395241 : ℝ) : EReal) (bitK x2 x3 r k) (dotK x0 x1 r k) (x4 (ix2 r (0 : Fin 1))) := by
  unfold k0_pay8
  dsimp only [mulf, addf, subf, select, logistic, broadcast]
  rw [dot_apply x0 x1 r k, mask_apply, LibColumn.broadcastTo_a1_ab_apply, LibColumn.broadcastTo_a1_ab_apply, shapeCast_self, named_K]
  rfl

/-! ## The accumulators and the row loss at a row -/

variable (sim : FVec Ideal S256x2048 .f32) (mk : IVec S256x2048 1)

/-- The initial running maximum: −∞. -/
theorem init_m_apply (r : Fin 256) (u : Fin 1) : k0_pay3 (F := Ideal) (ix2 r u) = Ideal.ofBits .f32 0xFF800000#32 := by
  unfold k0_pay3; rw [shapeCast_self]; rfl

/-- The initial sum of exponentials, weighted sum and count: zero. -/
theorem init_l_apply (r : Fin 256) (u : Fin 1) : k0_pay4 (F := Ideal) (ix2 r u) = Ideal.ofBits .f32 0x00000000#32 := by
  unfold k0_pay4; rw [shapeCast_self]; rfl
theorem init_s_apply (r : Fin 256) (u : Fin 1) : k0_pay5 (F := Ideal) (ix2 r u) = Ideal.ofBits .f32 0x00000000#32 := by
  unfold k0_pay5; rw [shapeCast_self]; rfl
theorem init_n_apply (r : Fin 256) (u : Fin 1) : k0_pay6 (F := Ideal) (ix2 r u) = Ideal.ofBits .f32 0x00000000#32 := by
  unfold k0_pay6; rw [shapeCast_self]; rfl

/-- The stored running maximum is the new maximum. -/
theorem stored_max (v : FVec Ideal S256x1 .f32) : k0_pay1 (F := Ideal) v = v := by
  unfold k0_pay1; exact shapeCast_self _ _

/-- The new running maximum of row `r`: the old one against the tile's row maximum. -/
theorem newmax_apply (mp : Vec Ideal S256x1 .f32) (r : Fin 256) (u : Fin 1) :
    k0_pay9 (F := Ideal) sim mp (ix2 r u)
      = max (mp (ix2 r u)) (Finset.univ.fold max (Ideal.ofBits .f32 0xFF800000#32) (fun k : Fin 2048 => sim (ix2 r k))) := by
  unfold k0_pay9
  show max (mp (ix2 r u)) (shapeCast S256x1 (multiReduction .maximumf [1] S256 sim 0xFF800000#32
    Facts₀.reduces_S256x2048_S256 (.inl rfl) rfl) Facts₀.shapeCasts_S256_S256x1 (ix2 r u)) = _
  rw [LibColumn.shapeCast_a_a1_apply, rowmax_apply]

/-- The new sum of exponentials of row `r`: the old one rescaled to the new maximum, plus the tile's. -/
theorem newsum_apply (mp1 mp2 lp : Vec Ideal S256x1 .f32) (r : Fin 256) (u : Fin 1) :
    k0_pay10 (F := Ideal) sim mp1 mp2 lp (ix2 r u)
      = Ideal.exp (mp2 (ix2 r u) - k0_pay9 (F := Ideal) sim mp1 (ix2 r u)) * lp (ix2 r u)
        + ∑ k : Fin 2048, Ideal.exp (sim (ix2 r k) - k0_pay9 (F := Ideal) sim mp1 (ix2 r (0 : Fin 1))) := by
  unfold k0_pay10
  rw [shapeCast_self]
  show Ideal.exp (mp2 (ix2 r u) - k0_pay9 (F := Ideal) sim mp1 (ix2 r u)) * lp (ix2 r u)
    + shapeCast S256x1 (multiReduction .add [1] S256 (exp (subf sim (broadcastTo S256x2048 (k0_pay9 (F := Ideal) sim mp1)
        Facts₀.broadcasts_S256x1_S256x2048))) 0x00000000#32 Facts₀.reduces_S256x2048_S256 (.inl rfl) rfl)
      Facts₀.shapeCasts_S256_S256x1 (ix2 r u) = _
  rw [LibColumn.shapeCast_a_a1_apply, rowsum_apply]
  refine congrArg _ (Finset.sum_congr rfl fun k _ => ?_)
  show Ideal.exp (sim (ix2 r k) - broadcastTo S256x2048 (k0_pay9 (F := Ideal) sim mp1) Facts₀.broadcasts_S256x1_S256x2048 (ix2 r k)) = _
  rw [LibColumn.broadcastTo_a1_ab_apply]

/-- The label-match bit as a float weight. -/
theorem weight_apply (r : Fin 256) (k : Fin 2048) :
    k0_pay11 (F := Ideal) mk (ix2 r k) = ((((mk (ix2 r k)).setWidth 32).toInt : ℝ) : EReal) := rfl

/-- The new weighted sum of logits of row `r`. -/
theorem newspos_apply (sp : Vec Ideal S256x1 .f32) (r : Fin 256) (u : Fin 1) :
    k0_pay12 (F := Ideal) mk sim sp (ix2 r u)
      = sp (ix2 r u) + ∑ k : Fin 2048, ((((mk (ix2 r k)).setWidth 32).toInt : ℝ) : EReal) * sim (ix2 r k) := by
  unfold k0_pay12
  rw [shapeCast_self]
  show sp (ix2 r u) + shapeCast S256x1 (multiReduction .add [1] S256 (mulf (k0_pay11 (F := Ideal) mk) sim) 0x00000000#32
    Facts₀.reduces_S256x2048_S256 (.inl rfl) rfl) Facts₀.shapeCasts_S256_S256x1 (ix2 r u) = _
  rw [LibColumn.shapeCast_a_a1_apply, rowsum_apply]
  rfl

/-- The new count of matching labels of row `r`. -/
theorem newnpos_apply (np : Vec Ideal S256x1 .f32) (r : Fin 256) (u : Fin 1) :
    k0_pay13 (F := Ideal) mk np (ix2 r u)
      = np (ix2 r u) + ∑ k : Fin 2048, ((((mk (ix2 r k)).setWidth 32).toInt : ℝ) : EReal) := by
  unfold k0_pay13
  rw [shapeCast_self]
  show np (ix2 r u) + shapeCast S256x1 (multiReduction .add [1] S256 (k0_pay11 (F := Ideal) mk) 0x00000000#32
    Facts₀.reduces_S256x2048_S256 (.inl rfl) rfl) Facts₀.shapeCasts_S256_S256x1 (ix2 r u) = _
  rw [LibColumn.shapeCast_a_a1_apply, rowsum_apply]
  rfl

/-- The row loss of row `r` from the four accumulators and the row's confidence. -/
theorem loss_apply (np l cf sp m : Vec Ideal S256x1 .f32) (r : Fin 256) (u : Fin 1) :
    k0_pay2 (F := Ideal) np l cf sp m (ix2 r u)
      = Steps.lossK (cf (ix2 r u)) (m (ix2 r u)) (l (ix2 r u)) (sp (ix2 r u)) (np (ix2 r u)) := by
  unfold k0_pay2 Steps.lossK
  rw [shapeCast_self]
  rfl

end Cert.KernelIdeal.EntryK

end
-- ==== Proof.Blocks.lean ====
/-
  The input blocks of a grid point, read off the argument arrays.

  Point `t` of the 8 × 16 grid works on row block `t / 16` (256 online rows) and column tile `t % 16` (2048 offline
  rows): its blocks of the online features, labels and confidences are rows `256·(t/16) + r`, its blocks of the offline
  features and labels are rows `2048·(t%16) + k`. The labels and confidences reach the kernel reshaped to one-column and
  one-row matrices by the host; read at an index those are the argument vectors.
-/
import proofs.«102495_j45234595561871_2_alg».proof.Proof.Gen.KernelIdeal.Frame
import proofs.«102495_j45234595561871_2_alg».proof.Proof.LibColumn
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F] [Named F]
variable (m : (ℓ : Loc nD τ sig) → Buf (Elt F) ℓ)

/-- The global online row of row `r` of point `t`'s row block. -/
def rowOf (t : Fin cfg0.N) (r : Fin 256) : Fin 2048 :=
  ⟨256 * (t.val / 16) + r.val, by have := t.isLt; have hN : cfg0.N = 128 := N_0; have := r.isLt; omega⟩

/-- The global offline row of row `k` of point `t`'s column tile. -/
def colOf (t : Fin cfg0.N) (k : Fin 2048) : Fin 32768 :=
  ⟨2048 * (t.val % 16) + k.val, by have := k.isLt; omega⟩

theorem idx_rows : ∀ t : Fin cfg0.N, win0_0.index t (0 : Fin 2) = t.val / 16 ∧ win0_0.index t (1 : Fin 2) = 0
    ∧ win0_2.index t (0 : Fin 2) = t.val / 16 ∧ win0_2.index t (1 : Fin 2) = 0
    ∧ win0_4.index t (0 : Fin 2) = t.val / 16 ∧ win0_4.index t (1 : Fin 2) = 0
    ∧ win0_5.index t (0 : Fin 2) = t.val / 16 ∧ win0_5.index t (1 : Fin 2) = 0 :=
  (by decide +kernel : ∀ t : Fin grid0.N, _)

theorem idx_cols : ∀ t : Fin cfg0.N, win0_1.index t (0 : Fin 2) = t.val % 16 ∧ win0_1.index t (1 : Fin 2) = 0
    ∧ win0_3.index t (0 : Fin 2) = 0 ∧ win0_3.index t (1 : Fin 2) = t.val % 16 :=
  (by decide +kernel : ∀ t : Fin grid0.N, _)

/-- The host's reshapes before the region. -/
theorem V_v0 (c : Dev nD) : (V m c main_v0 : S2048x1.Idx → Elt F .i32)
    = shapeCast S2048x1 (m ((c : Thread nD τ).loc main_arg1)) Facts₀.shapeCasts_S2048_S2048x1 := by
  show StableHlo.after hostOps0 (fun b => m (c, b)) (Proc.devRef .tc main_v0) = _
  after_results
  rfl

theorem V_v1 (c : Dev nD) : (V m c main_v1 : S1x32768.Idx → Elt F .i32)
    = shapeCast S1x32768 (m ((c : Thread nD τ).loc main_arg3)) Facts₀.shapeCasts_S32768_S1x32768 := by
  show StableHlo.after hostOps0 (fun b => m (c, b)) (Proc.devRef .tc main_v1) = _
  after_results
  rfl

theorem V_v2 (c : Dev nD) : (V m c main_v2 : S2048x1.Idx → Elt F .f32)
    = shapeCast S2048x1 (m ((c : Thread nD τ).loc main_arg4)) Facts₀.shapeCasts_S2048_S2048x1 := by
  show StableHlo.after hostOps0 (fun b => m (c, b)) (Proc.devRef .tc main_v2) = _
  after_results
  rfl

/-- The online feature block. -/
theorem blk_on (c : Dev nD) (t : Fin cfg0.N) (r : Fin 256) (a : Fin 128) :
    (iblk m c 0 t : Vec F S256x128 .f32) (ix2 r a) = m ((c : Thread nD τ).loc main_arg0) (ix2 (rowOf t r) a) := by
  unfold iblk
  rw [View.read_apply]
  show V m c main_arg0 _ = _
  rw [V_main_arg0]
  congr 1
  funext ax
  apply Fin.ext
  obtain ⟨e0, e1, -⟩ := idx_rows t
  match ax with
  | ⟨0, _⟩ => show win0_0.index t (0 : Fin 2) * 256 + 1 * r.val = 256 * (t.val / 16) + r.val; rw [e0]; omega
  | ⟨1, _⟩ => show win0_0.index t (1 : Fin 2) * 128 + 1 * a.val = a.val; rw [e1]; omega

/-- The offline feature block. -/
theorem blk_off (c : Dev nD) (t : Fin cfg0.N) (k : Fin 2048) (a : Fin 128) :
    (iblk m c 1 t : Vec F S2048x128 .f32) (ix2 k a) = m ((c : Thread nD τ).loc main_arg2) (ix2 (colOf t k) a) := by
  unfold iblk
  rw [View.read_apply]
  show V m c main_arg2 _ = _
  rw [V_main_arg2]
  congr 1
  funext ax
  apply Fin.ext
  obtain ⟨e0, e1, -⟩ := idx_cols t
  match ax with
  | ⟨0, _⟩ => show win0_1.index t (0 : Fin 2) * 2048 + 1 * k.val = 2048 * (t.val % 16) + k.val; rw [e0]; omega
  | ⟨1, _⟩ => show win0_1.index t (1 : Fin 2) * 128 + 1 * a.val = a.val; rw [e1]; omega

/-- The online label block. -/
theorem blk_yon (c : Dev nD) (t : Fin cfg0.N) (r : Fin 256) (u : Fin 1) :
    (iblk m c 2 t : Vec F S256x1 .i32) (ix2 r u) = m ((c : Thread nD τ).loc main_arg1) (ix1 (rowOf t r)) := by
  unfold iblk
  rw [View.read_apply]
  show V m c main_v0 _ = _
  rw [V_v0, ← LibColumn.shapeCast_a_a1_apply (m ((c : Thread nD τ).loc main_arg1)) Facts₀.shapeCasts_S2048_S2048x1 (rowOf t r) u]
  congr 1
  funext ax
  apply Fin.ext
  obtain ⟨-, -, e0, e1, -⟩ := idx_rows t
  match ax with
  | ⟨0, _⟩ => show win0_2.index t (0 : Fin 2) * 256 + 1 * r.val = 256 * (t.val / 16) + r.val; rw [e0]; omega
  | ⟨1, _⟩ => show win0_2.index t (1 : Fin 2) * 1 + 1 * u.val = u.val; rw [e1]; omega

/-- The offline label block. -/
theorem blk_yoff (c : Dev nD) (t : Fin cfg0.N) (u : Fin 1) (k : Fin 2048) :
    (iblk m c 3 t : Vec F S1x2048 .i32) (ix2 u k) = m ((c : Thread nD τ).loc main_arg3) (ix1 (colOf t k)) := by
  unfold iblk
  rw [View.read_apply]
  show V m c main_v1 _ = _
  rw [V_v1, ← shapeCast_a_1a_apply (m ((c : Thread nD τ).loc main_arg3)) Facts₀.shapeCasts_S32768_S1x32768 u (colOf t k)]
  congr 1
  funext ax
  apply Fin.ext
  obtain ⟨-, -, e0, e1⟩ := idx_cols t
  match ax with
  | ⟨0, _⟩ => show win0_3.index t (0 : Fin 2) * 1 + 1 * u.val = u.val; rw [e0]; omega
  | ⟨1, _⟩ => show win0_3.index t (1 : Fin 2) * 2048 + 1 * k.val = 2048 * (t.val % 16) + k.val; rw [e1]; omega

/-- The confidence block. -/
theorem blk_conf (c : Dev nD) (t : Fin cfg0.N) (r : Fin 256) (u : Fin 1) :
    (iblk m c 4 t : Vec F S256x1 .f32) (ix2 r u) = m ((c : Thread nD τ).loc main_arg4) (ix1 (rowOf t r)) := by
  unfold iblk
  rw [View.read_apply]
  show V m c main_v2 _ = _
  rw [V_v2, ← LibColumn.shapeCast_a_a1_apply (m ((c : Thread nD τ).loc main_arg4)) Facts₀.shapeCasts_S2048_S2048x1 (rowOf t r) u]
  congr 1
  funext ax
  apply Fin.ext
  obtain ⟨-, -, -, -, e0, e1, -⟩ := idx_rows t
  match ax with
  | ⟨0, _⟩ => show win0_4.index t (0 : Fin 2) * 256 + 1 * r.val = 256 * (t.val / 16) + r.val; rw [e0]; omega
  | ⟨1, _⟩ => show win0_4.index t (1 : Fin 2) * 1 + 1 * u.val = u.val; rw [e1]; omega

end Cert.KernelIdeal.Blocks

end
-- ==== Proof.RowData.lean ====
/-
  The loss's data as real functions of real argument arrays: the raw similarity of an online row and an offline row
  (their dot product), the label-match bit, the logit and the weight of a column.
-/
import proofs.«102495_j45234595561871_2_alg».proof.Proof.Entry
import Idealize.ShloMosaic.Lib.ValueIdx

noncomputable section

namespace Cert.RowData

open Idealize.ShloMosaic Idealize.ShloMosaic.ValueIdx

variable (Ar : (⟨2, ![2048, 128]⟩ : Shape).Idx → ℝ) (Br : (⟨2, ![32768, 128]⟩ : Shape).Idx → ℝ)
  (Cr : (⟨1, ![2048]⟩ : Shape).Idx → ℝ)
  (yo : (⟨1, ![2048]⟩ : Shape).Idx → BitVec 32) (yf : (⟨1, ![32768]⟩ : Shape).Idx → BitVec 32)

/-- The dot product of online row `p` with offline row `q`. -/
def dotR (p : Fin 2048) (q : Fin 32768) : ℝ := ∑ a : Fin 128, Ar (ix2 p a) * Br (ix2 q a)

/-- Whether the labels of online row `p` and offline row `q` match. -/
def bit (p : Fin 2048) (q : Fin 32768) : BitVec 1 := IntOp.cmpi .eq (yo (ix1 p)) (yf (ix1 q))

/-- The logit of online row `p` against offline row `q`. -/
def sR (p : Fin 2048) (q : Fin 32768) : ℝ := Entry.simReal (bit yo yf p q) (dotR Ar Br p q) (Cr (ix1 p))

/-- The weight of offline row `q` in online row `p`'s loss. -/
def wR (p : Fin 2048) (q : Fin 32768) : ℝ := Entry.wReal (bit yo yf p q)

end Cert.RowData

end
-- ==== Proof.KernelInv.lean ====
/-
  What the four accumulators hold after each grid point, and what the last column tile of a row block writes.

  By induction along the grid: after point `t`, for every row `r` of its row block, the running maximum, the rescaled
  sum of exponentials, the weighted sum of logits and the count of matching labels are the real numbers `Spec.mx`,
  `Spec.lsum`, `Spec.spos`, `Spec.npos` of the row's logits and weights after tile `t % 16` (`inv`). A point with
  `t % 16 = 0` starts from −∞ and zeros; any other point continues from the point before, which is in the same row block.
  At `t % 16 = 15` the output block holds the kernel's row loss of the four numbers after the last tile (`out_last`).
  The argument arrays are real-valued: finiteness of the inputs is used here.
-/
import proofs.«102495_j45234595561871_2_alg».proof.Proof.KernelPieces
import proofs.«102495_j45234595561871_2_alg».proof.Proof.KernelEntry
import proofs.«102495_j45234595561871_2_alg».proof.Proof.Blocks
import proofs.«102495_j45234595561871_2_alg».proof.Proof.RowData
import proofs.«102495_j45234595561871_2_alg».proof.Proof.Steps

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Blocks Cert.KernelIdeal.EntryK Cert.Spec Cert.RowData

variable (m : (ℓ : Loc nD τ sig) → Buf (Elt Ideal) ℓ) (c : Dev nD)

/-- The point's logit tile and label-match tile. -/
abbrev S (t : Fin cfg0.N) : FVec Ideal S256x2048 .f32 :=
  k0_pay8 (F := Ideal) (iblk m c 0 t) (iblk m c 1 t) (iblk m c 2 t) (iblk m c 3 t) (iblk m c 4 t)
abbrev Mk (t : Fin cfg0.N) : IVec S256x2048 1 := k0_pay7 (F := Ideal) (iblk m c 2 t) (iblk m c 3 t)

/-! ## The accumulators after a point, as the body's values -/

theorem outs_A (t : Fin cfg0.N) (h0 : t.val % 16 = 0) (h1 : ¬t.val % 16 = 15) :
    (outsAt0 m c t.val t.isLt).2 = (k0_pay1 (F := Ideal) (k0_pay9 (F := Ideal) (S m c t) (k0_pay3 (F := Ideal))), k0_pay10 (F := Ideal) (S m c t) (k0_pay3 (F := Ideal)) (k0_pay3 (F := Ideal)) (k0_pay4 (F := Ideal)),
      k0_pay12 (F := Ideal) (Mk m c t) (S m c t) (k0_pay5 (F := Ideal)), k0_pay13 (F := Ideal) (Mk m c t) (k0_pay6 (F := Ideal))) := by
  rw [outsAt0_A m c t h0 h1]
  show (_, _, _, _) = _
  rw [Pieces.sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t),
    Pieces.sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t),
    Pieces.sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t),
    Pieces.sout0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)]

theorem outs_B (t : Fin cfg0.N) (h0 : ¬t.val % 16 = 0) (h1 : ¬t.val % 16 = 15) :
    (outsAt0 m c t.val t.isLt).2 = (k0_pay1 (F := Ideal) (k0_pay9 (F := Ideal) (S m c t) (outsAt0 m c (t.val - 1) (Nat.lt_of_le_of_lt (Nat.sub_le _ _) t.isLt)).2.1),
      k0_pay10 (F := Ideal) (S m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1,
      k0_pay12 (F := Ideal) (Mk m c t) (S m c t) (outsAt0 m c (t.val - 1) (Nat.lt_of_le_of_lt (Nat.sub_le _ _) t.isLt)).2.2.2.1, k0_pay13 (F := Ideal) (Mk m c t) (outsAt0 m c (t.val - 1) (Nat.lt_of_le_of_lt (Nat.sub_le _ _) t.isLt)).2.2.2.2) := by
  rw [outsAt0_B m c t h0 h1]
  show (_, _, _, _) = _
  rw [Pieces.sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    Pieces.sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    Pieces.sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    Pieces.sout0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

theorem outs_C (t : Fin cfg0.N) (h0 : ¬t.val % 16 = 0) (h1 : t.val % 16 = 15) :
    outsAt0 m c t.val t.isLt = (k0_pay2 (F := Ideal) (k0_pay13 (F := Ideal) (Mk m c t) (outsAt0 m c (t.val - 1) (Nat.lt_of_le_of_lt (Nat.sub_le _ _) t.isLt)).2.2.2.2)
        (k0_pay10 (F := Ideal) (S m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1) (iblk m c 4 t)
        (k0_pay12 (F := Ideal) (Mk m c t) (S m c t) (outsAt0 m c (t.val - 1) (Nat.lt_of_le_of_lt (Nat.sub_le _ _) t.isLt)).2.2.2.1) (k0_pay1 (F := Ideal) (k0_pay9 (F := Ideal) (S m c t) (outsAt0 m c (t.val - 1) (Nat.lt_of_le_of_lt (Nat.sub_le _ _) t.isLt)).2.1)),
      k0_pay1 (F := Ideal) (k0_pay9 (F := Ideal) (S m c t) (outsAt0 m c (t.val - 1) (Nat.lt_of_le_of_lt (Nat.sub_le _ _) t.isLt)).2.1),
      k0_pay10 (F := Ideal) (S m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1,
      k0_pay12 (F := Ideal) (Mk m c t) (S m c t) (outsAt0 m c (t.val - 1) (Nat.lt_of_le_of_lt (Nat.sub_le _ _) t.isLt)).2.2.2.1, k0_pay13 (F := Ideal) (Mk m c t) (outsAt0 m c (t.val - 1) (Nat.lt_of_le_of_lt (Nat.sub_le _ _) t.isLt)).2.2.2.2) := by
  rw [outsAt0_C m c t h0 h1]
  rw [Pieces.out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    Pieces.sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    Pieces.sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    Pieces.sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    Pieces.sout0_C_3_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

/-! ## The accumulators after a point, as real numbers -/

variable (Ar : S2048x128.Idx → ℝ) (Br : S32768x128.Idx → ℝ) (Cr : S2048.Idx → ℝ)

/-- The float argument arrays hold real numbers. -/
structure RealArgs : Prop where
  hA : ∀ i, m ((c : Thread nD τ).loc main_arg0) i = ((Ar i : ℝ) : EReal)
  hB : ∀ i, m ((c : Thread nD τ).loc main_arg2) i = ((Br i : ℝ) : EReal)
  hC : ∀ i, m ((c : Thread nD τ).loc main_arg4) i = ((Cr i : ℝ) : EReal)

/-- Online row `p`'s logits and weights over all offline rows. -/
abbrev sRow (p : Fin 2048) : Fin 32768 → ℝ :=
  sR Ar Br Cr (m ((c : Thread nD τ).loc main_arg1)) (m ((c : Thread nD τ).loc main_arg3)) p
abbrev wRow (p : Fin 2048) : Fin 32768 → ℝ :=
  wR (m ((c : Thread nD τ).loc main_arg1)) (m ((c : Thread nD τ).loc main_arg3)) p

theorem tile_col {α : Type} (g : Fin 32768 → α) (t : Fin cfg0.N) (k : Fin 2048) : tile g (t.val % 16) k = g (colOf t k) := by
  unfold tile colOf
  congr 1
  apply Fin.ext
  show (2048 * (t.val % 16) + k.val) % 32768 = 2048 * (t.val % 16) + k.val
  have := k.isLt
  omega

variable {m c Ar Br Cr}

/-- Entry (r, k) of point `t`'s logit tile is the logit of the global rows. -/
theorem logit_tile (H : RealArgs m c Ar Br Cr) (t : Fin cfg0.N) (r : Fin 256) (k : Fin 2048) :
    S m c t (ix2 r k) = ((tile (sRow m c Ar Br Cr (rowOf t r)) (t.val % 16) k : ℝ) : EReal) := by
  rw [tile_col]
  show k0_pay8 (F := Ideal) (iblk m c 0 t) (iblk m c 1 t) (iblk m c 2 t) (iblk m c 3 t) (iblk m c 4 t) (ix2 r k) = _
  rw [logits_apply]
  have hd : dotK (iblk m c 0 t) (iblk m c 1 t) r k = ((dotR Ar Br (rowOf t r) (colOf t k) : ℝ) : EReal) := by
    unfold dotK dotR
    rw [coe_sum]
    refine Finset.sum_congr rfl fun a _ => ?_
    rw [blk_on, blk_off, H.hA, H.hB, EReal.coe_mul]
  have hb : bitK (iblk m c 2 t) (iblk m c 3 t) r k
      = bit (m ((c : Thread nD τ).loc main_arg1)) (m ((c : Thread nD τ).loc main_arg3)) (rowOf t r) (colOf t k) := by
    unfold bitK bit
    rw [blk_yon, blk_yoff]
  rw [hd, hb, blk_conf, H.hC, Entry.simKer_coe]
  rfl

/-- The weight of entry (r, k) of point `t`'s tile. -/
theorem weight_tile (t : Fin cfg0.N) (r : Fin 256) (k : Fin 2048) :
    ((((Mk m c t (ix2 r k)).setWidth 32).toInt : ℝ) : EReal) = ((tile (wRow m c (rowOf t r)) (t.val % 16) k : ℝ) : EReal) := by
  rw [tile_col, Entry.wKer_coe]
  show ((Entry.wReal (k0_pay7 (F := Ideal) (iblk m c 2 t) (iblk m c 3 t) (ix2 r k)) : ℝ) : EReal) = _
  rw [mask_apply]
  unfold bitK
  rw [blk_yon, blk_yoff]
  rfl

/-- After point `n`, row `r` of its row block: the four numbers after tile `n % 16`. -/
def Acc (m : (ℓ : Loc nD τ sig) → Buf (Elt Ideal) ℓ) (c : Dev nD) (Ar : S2048x128.Idx → ℝ) (Br : S32768x128.Idx → ℝ)
    (Cr : S2048.Idx → ℝ) (n : ℕ) (hn : n < cfg0.N) (r : Fin 256) : Prop :=
  (∀ u : Fin 1, (outsAt0 m c n hn).2.1 (ix2 r u) = ((mx (tile (sRow m c Ar Br Cr (rowOf ⟨n, hn⟩ r))) (n % 16) : ℝ) : EReal))
  ∧ (∀ u : Fin 1, (outsAt0 m c n hn).2.2.1 (ix2 r u) = ((lsum (tile (sRow m c Ar Br Cr (rowOf ⟨n, hn⟩ r))) (n % 16) : ℝ) : EReal))
  ∧ (∀ u : Fin 1, (outsAt0 m c n hn).2.2.2.1 (ix2 r u)
      = ((spos (tile (sRow m c Ar Br Cr (rowOf ⟨n, hn⟩ r))) (tile (wRow m c (rowOf ⟨n, hn⟩ r))) (n % 16) : ℝ) : EReal))
  ∧ (∀ u : Fin 1, (outsAt0 m c n hn).2.2.2.2 (ix2 r u) = ((npos (tile (wRow m c (rowOf ⟨n, hn⟩ r))) (n % 16) : ℝ) : EReal))

/-- The first column tile of a row block. -/
theorem acc_first (H : RealArgs m c Ar Br Cr) (t : Fin cfg0.N) (h0 : t.val % 16 = 0) (r : Fin 256) :
    Acc m c Ar Br Cr t.val t.isLt r := by
  have h1 : ¬t.val % 16 = 15 := by omega
  have ho := outs_A m c t h0 h1
  have hrow : (fun k : Fin 2048 => S m c t (ix2 r k))
      = fun k => ((tile (sRow m c Ar Br Cr (rowOf t r)) (t.val % 16) k : ℝ) : EReal) := funext fun k => logit_tile H t r k
  have hmax : ∀ u : Fin 1, k0_pay9 (F := Ideal) (S m c t) (k0_pay3 (F := Ideal)) (ix2 r u)
      = ((mx (tile (sRow m c Ar Br Cr (rowOf t r))) (t.val % 16) : ℝ) : EReal) := fun u => by
    rw [newmax_apply, init_m_apply, hrow, Steps.init_max, h0]
    rfl
  unfold Acc
  rw [ho]
  refine ⟨fun u => ?_, fun u => ?_, fun u => ?_, fun u => ?_⟩
  · show k0_pay1 (F := Ideal) (k0_pay9 (F := Ideal) (S m c t) (k0_pay3 (F := Ideal))) (ix2 r u) = _
    rw [stored_max]; exact hmax u
  · show k0_pay10 (F := Ideal) (S m c t) (k0_pay3 (F := Ideal)) (k0_pay3 (F := Ideal)) (k0_pay4 (F := Ideal)) (ix2 r u) = _
    rw [newsum_apply, hmax u, hmax 0, init_m_apply, init_l_apply]
    simp only [logit_tile H]
    rw [Steps.init_l, h0]
    rfl
  · show k0_pay12 (F := Ideal) (Mk m c t) (S m c t) (k0_pay5 (F := Ideal)) (ix2 r u) = _
    rw [newspos_apply, init_s_apply]
    simp only [logit_tile H, weight_tile]
    rw [Steps.init_s, h0]
    rfl
  · show k0_pay13 (F := Ideal) (Mk m c t) (k0_pay6 (F := Ideal)) (ix2 r u) = _
    rw [newnpos_apply, init_n_apply]
    simp only [weight_tile]
    rw [Steps.init_n, h0]
    rfl

/-- A later column tile, from what the point before left. -/
theorem acc_next (H : RealArgs m c Ar Br Cr) (t : Fin cfg0.N) (j : ℕ) (hj : t.val % 16 = j + 1) (r : Fin 256)
    (Pm Pl Ps Pn : Vec Ideal S256x1 .f32)
    (ho : (outsAt0 m c t.val t.isLt).2 = (k0_pay1 (F := Ideal) (k0_pay9 (F := Ideal) (S m c t) Pm),
      k0_pay10 (F := Ideal) (S m c t) Pm Pm Pl, k0_pay12 (F := Ideal) (Mk m c t) (S m c t) Ps, k0_pay13 (F := Ideal) (Mk m c t) Pn))
    (hm : ∀ u : Fin 1, Pm (ix2 r u) = ((mx (tile (sRow m c Ar Br Cr (rowOf t r))) j : ℝ) : EReal))
    (hl : ∀ u : Fin 1, Pl (ix2 r u) = ((lsum (tile (sRow m c Ar Br Cr (rowOf t r))) j : ℝ) : EReal))
    (hs : ∀ u : Fin 1, Ps (ix2 r u)
      = ((spos (tile (sRow m c Ar Br Cr (rowOf t r))) (tile (wRow m c (rowOf t r))) j : ℝ) : EReal))
    (hn : ∀ u : Fin 1, Pn (ix2 r u) = ((npos (tile (wRow m c (rowOf t r))) j : ℝ) : EReal)) :
    Acc m c Ar Br Cr t.val t.isLt r := by
  have hrow : (fun k : Fin 2048 => S m c t (ix2 r k))
      = fun k => ((tile (sRow m c Ar Br Cr (rowOf t r)) (t.val % 16) k : ℝ) : EReal) := funext fun k => logit_tile H t r k
  have hmax : ∀ u : Fin 1, k0_pay9 (F := Ideal) (S m c t) Pm (ix2 r u)
      = ((mx (tile (sRow m c Ar Br Cr (rowOf t r))) (t.val % 16) : ℝ) : EReal) := fun u => by
    rw [newmax_apply, hm u, hrow, Steps.step_max, hj]
    rfl
  unfold Acc
  rw [ho]
  refine ⟨fun u => ?_, fun u => ?_, fun u => ?_, fun u => ?_⟩
  · show k0_pay1 (F := Ideal) (k0_pay9 (F := Ideal) (S m c t) Pm) (ix2 r u) = _
    rw [stored_max]; exact hmax u
  · show k0_pay10 (F := Ideal) (S m c t) Pm Pm Pl (ix2 r u) = _
    rw [newsum_apply, hmax u, hmax 0, hm u, hl u]
    simp only [logit_tile H]
    rw [Steps.step_l, hj]
    rfl
  · show k0_pay12 (F := Ideal) (Mk m c t) (S m c t) Ps (ix2 r u) = _
    rw [newspos_apply, hs u]
    simp only [logit_tile H, weight_tile]
    rw [Steps.step_s, hj]
    rfl
  · show k0_pay13 (F := Ideal) (Mk m c t) Pn (ix2 r u) = _
    rw [newnpos_apply, hn u]
    simp only [weight_tile]
    rw [Steps.step_n, hj]
    rfl

/-- The invariant along the grid. -/
theorem inv (H : RealArgs m c Ar Br Cr) : ∀ (n : ℕ) (hn : n < cfg0.N) (r : Fin 256), Acc m c Ar Br Cr n hn r := by
  intro n
  induction n with
  | zero => intro hn r; exact acc_first H ⟨0, hn⟩ rfl r
  | succ n ih =>
    intro hn r
    by_cases h0 : (n + 1) % 16 = 0
    · exact acc_first H ⟨n + 1, hn⟩ h0 r
    · have hn' : n < cfg0.N := Nat.lt_of_succ_lt hn
      obtain ⟨im, il, is, inn⟩ := ih hn' r
      have hrow : rowOf ⟨n + 1, hn⟩ r = rowOf ⟨n, hn'⟩ r := by
        unfold rowOf; apply Fin.ext; show 256 * ((n + 1) / 16) + r.val = 256 * (n / 16) + r.val; omega
      have hj : (⟨n + 1, hn⟩ : Fin cfg0.N).val % 16 = n % 16 + 1 := by show (n + 1) % 16 = n % 16 + 1; omega
      have ho : (outsAt0 m c (n + 1) hn).2 = (k0_pay1 (F := Ideal) (k0_pay9 (F := Ideal) (S m c ⟨n + 1, hn⟩) (outsAt0 m c n hn').2.1),
          k0_pay10 (F := Ideal) (S m c ⟨n + 1, hn⟩) (outsAt0 m c n hn').2.1 (outsAt0 m c n hn').2.1 (outsAt0 m c n hn').2.2.1,
          k0_pay12 (F := Ideal) (Mk m c ⟨n + 1, hn⟩) (S m c ⟨n + 1, hn⟩) (outsAt0 m c n hn').2.2.2.1,
          k0_pay13 (F := Ideal) (Mk m c ⟨n + 1, hn⟩) (outsAt0 m c n hn').2.2.2.2) := by
        by_cases h1 : (n + 1) % 16 = 15
        · exact congrArg Prod.snd (outs_C m c ⟨n + 1, hn⟩ h0 h1)
        · exact outs_B m c ⟨n + 1, hn⟩ h0 h1
      exact acc_next H ⟨n + 1, hn⟩ (n % 16) hj r _ _ _ _ ho (by rw [hrow]; exact im) (by rw [hrow]; exact il)
        (by rw [hrow]; exact is) (by rw [hrow]; exact inn)

/-- The output block at the last column tile of a row block: the kernel's row loss of the row's four numbers. -/
theorem out_last (H : RealArgs m c Ar Br Cr) (t : Fin cfg0.N) (h1 : t.val % 16 = 15) (r : Fin 256) (u : Fin 1) :
    (outsAt0 m c t.val t.isLt).1 (ix2 r u)
      = Steps.lossK ((Cr (ix1 (rowOf t r)) : ℝ) : EReal)
          ((mx (tile (sRow m c Ar Br Cr (rowOf t r))) 15 : ℝ) : EReal)
          ((lsum (tile (sRow m c Ar Br Cr (rowOf t r))) 15 : ℝ) : EReal)
          ((spos (tile (sRow m c Ar Br Cr (rowOf t r))) (tile (wRow m c (rowOf t r))) 15 : ℝ) : EReal)
          ((npos (tile (wRow m c (rowOf t r))) 15 : ℝ) : EReal) := by
  have h0 : ¬t.val % 16 = 0 := by omega
  obtain ⟨im, il, is, inn⟩ := inv H t.val t.isLt r
  have e : (outsAt0 m c t.val t.isLt).1 = k0_pay2 (F := Ideal) (outsAt0 m c t.val t.isLt).2.2.2.2 (outsAt0 m c t.val t.isLt).2.2.1
      (iblk m c 4 t) (outsAt0 m c t.val t.isLt).2.2.2.1 (outsAt0 m c t.val t.isLt).2.1 := by
    rw [outs_C m c t h0 h1]
  rw [e, loss_apply, blk_conf, H.hC, im u, il u, is u, inn u, h1]

end Cert.KernelIdeal.Inv

end
-- ==== Proof.KernelValue.lean ====
/-
  The kernel program's result.

  The region's output array holds, at row `p`, the kernel's row loss of row `p`'s four numbers after the last column
  tile: the point `16·(p/256) + 15` writes block `p/256`, and these blocks tile the array (`final_loss`). The host
  then sums the 2048 row losses from zero and divides by 2048 (`result`).
-/
import proofs.«102495_j45234595561871_2_alg».proof.Proof.KernelInv
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.ValueK

open Cert.KernelIdeal Cert.KernelIdeal.Gen Cert.KernelIdeal.Blocks Cert.KernelIdeal.Inv Cert.Spec Cert.RowData

variable (m : (ℓ : Loc nD τ sig) → Buf (Elt Ideal) ℓ) (ρ : Dev nD → PrngReg) (c : Dev nD)
variable (Ar : S2048x128.Idx → ℝ) (Br : S32768x128.Idx → ℝ) (Cr : S2048.Idx → ℝ)

/-- The kernel's loss of online row `p`. -/
def rowLoss (p : Fin 2048) : EReal :=
  Steps.lossK ((Cr (ix1 p) : ℝ) : EReal)
    ((mx (tile (sRow m c Ar Br Cr p)) 15 : ℝ) : EReal) ((lsum (tile (sRow m c Ar Br Cr p)) 15 : ℝ) : EReal)
    ((spos (tile (sRow m c Ar Br Cr p)) (tile (wRow m c p)) 15 : ℝ) : EReal) ((npos (tile (wRow m c p)) 15 : ℝ) : EReal)

/-- The one-column matrix of row losses. -/
def lossCol : S2048x1.Idx → EReal := fun i => rowLoss m c Ar Br Cr ⟨(i 0).val, idx2_lt0 i⟩

variable {m c Ar Br Cr}

/-- What the last column tile of a row block leaves in the output block, against the matrix of row losses. -/
theorem out_last' (H : RealArgs m c Ar Br Cr) (t : Fin cfg0.N) (h1 : t.val % 16 = 15) (y : S256x1.Idx) (i : S2048x1.Idx)
    (hi : (i 0).val = 256 * (t.val / 16) + (y 0).val) :
    (outsAt0 m c t.val t.isLt).1 y = lossCol m c Ar Br Cr i := by
  obtain ⟨r, u, rfl⟩ : ∃ (r : Fin 256) (u : Fin 1), y = ix2 r u := ⟨y 0, y 1, eq_ix2 y⟩
  rw [out_last H t h1 r u]
  unfold lossCol rowLoss
  have hp : (⟨(i 0).val, idx2_lt0 i⟩ : Fin 2048) = rowOf t r := Fin.ext hi
  rw [hp]

theorem flushed_eq (H : RealArgs m c Ar Br Cr) (t : Fin cfg0.N) (hf : (cfg0.win 5).flush t = true) :
    (dats m 0 c).flushed 5 t = ((cfg0.win 5).blk t).view.read (Elt Ideal) (lossCol m c Ar Br Cr) := by
  have h1 : t.val % 16 = 15 := (flush0_5 t).mp hf
  show (cfg0.win 5).cut (grid0.coords t) ((dats m 0 c).after 5 t) = _
  rw [after0_5]
  funext j
  show (outsAt0 m c t.val t.isLt).1 j = lossCol m c Ar Br Cr (((cfg0.win 5).blk t).view.emb j)
  refine out_last' H t h1 j _ ?_
  obtain ⟨-, -, -, -, -, -, e0, -⟩ := idx_rows t
  show win0_5.index t (0 : Fin 2) * 256 + 1 * (j 0).val = 256 * (t.val / 16) + (j 0).val
  rw [e0]; omega

theorem mem_blk5 (t : Fin cfg0.N) (i : S2048x1.Idx) :
    i ∈ ((cfg0.win 5).blk t).view.set ↔ ∀ a : Fin 2, win0_5.index t a * S256x1.size a ≤ (i a).val
      ∧ (i a).val < win0_5.index t a * S256x1.size a + S256x1.size a := by
  show i ∈ ((View.whole main_v3).slice (win0_5.rect t)).set ↔ _
  rw [View.set_slice_whole, Rect.mem_set_unit]
  exact Iff.rfl

theorem cover5 (i : S2048x1.Idx) : ∃ t : Fin cfg0.N, (cfg0.win 5).flush t = true ∧ i ∈ ((cfg0.win 5).blk t).view.set := by
  have hi0 : (i 0).val < 2048 := (i 0).isLt
  have hi1 : (i 1).val < 1 := (i 1).isLt
  have hN : cfg0.N = 128 := N_0
  have hlt : 16 * ((i 0).val / 256) + 15 < cfg0.N := by omega
  refine ⟨⟨16 * ((i 0).val / 256) + 15, hlt⟩, (flush0_5 _).mpr (by show (16 * ((i 0).val / 256) + 15) % 16 = 15; omega), ?_⟩
  rw [mem_blk5]
  obtain ⟨-, -, -, -, -, -, e0, e1⟩ := idx_rows ⟨16 * ((i 0).val / 256) + 15, hlt⟩
  intro a
  match a with
  | ⟨0, _⟩ =>
    show win0_5.index ⟨16 * ((i 0).val / 256) + 15, hlt⟩ (0 : Fin 2) * 256 ≤ (i 0).val
      ∧ (i 0).val < win0_5.index ⟨16 * ((i 0).val / 256) + 15, hlt⟩ (0 : Fin 2) * 256 + 256
    rw [e0]
    show (16 * ((i 0).val / 256) + 15) / 16 * 256 ≤ (i 0).val ∧ (i 0).val < (16 * ((i 0).val / 256) + 15) / 16 * 256 + 256
    omega
  | ⟨1, _⟩ =>
    show win0_5.index ⟨16 * ((i 0).val / 256) + 15, hlt⟩ (1 : Fin 2) * 1 ≤ (i 1).val
      ∧ (i 1).val < win0_5.index ⟨16 * ((i 0).val / 256) + 15, hlt⟩ (1 : Fin 2) * 1 + 1
    rw [e1]; omega

/-- The region's output array after the run: the matrix of row losses. -/
theorem final_loss (H : RealArgs m c Ar Br Cr) : (dats m 0 c).arrAt 5 cfg0.N = lossCol m c Ar Br Cr :=
  (dats m 0 c).arrAt_eq_of_cover 5 (lossCol m c Ar Br Cr) (fun t hf => flushed_eq H t hf) cover5

/-- The program's result after the host's sum and division. -/
theorem tail_eq (H : RealArgs m c Ar Br Cr) :
    Pipeline.afterTail₀ cfgs (dats m) 0 (V0 m) [hostOps1] c main_v5
      = Host.divf (F := Ideal) (Host.reduceAdd (F := Ideal) (lossCol m c Ar Br Cr) (constant S_ .f32 0x00000000#32)
          Facts₀.reducesTo_S2048x1_S_d0_1 Facts₀.h_S_) (constant S_ .f32 0x45000000#32) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v3)
      = lossCol m c Ar Br Cr :=
    (Pipeline.withArrays_arr spec0 launch0.win.arr_inj c _ _ 5).trans (final_loss H)
  rw [e]

/-- The mean loss as the kernel program computes it. -/
def result (m : (ℓ : Loc nD τ sig) → Buf (Elt Ideal) ℓ) (c : Dev nD) (Ar : S2048x128.Idx → ℝ) (Br : S32768x128.Idx → ℝ)
    (Cr : S2048.Idx → ℝ) : Buf (Elt Ideal) ((c : Thread nD τ).loc main_v5) :=
  Host.divf (F := Ideal) (Host.reduceAdd (F := Ideal) (lossCol m c Ar Br Cr) (constant S_ .f32 0x00000000#32)
    Facts₀.reducesTo_S2048x1_S_d0_1 Facts₀.h_S_) (constant S_ .f32 0x45000000#32)

/-- The kernel program's run, read: the result at the mean loss, the arguments unchanged. -/
theorem run (Ar : Dev nD → S2048x128.Idx → ℝ) (Br : Dev nD → S32768x128.Idx → ℝ) (Cr : Dev nD → S2048.Idx → ℝ)
    (H : ∀ c, RealArgs m c (Ar c) (Br c) (Cr c)) :
    θ_run defs (onTc (τ := τ) (main (F := Ideal))) ⟨m, fun _ => 0, ρ⟩ fun r => ∀ c : Dev nD,
      r.2.mem ((c.tc : Thread nD τ).loc main_v5) = result m c (Ar c) (Br c) (Cr c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v5 (Pipeline.mem_restRefs_of main_v5 (by decide) (by decide))).trans (tail_eq (H c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.ValueK

end
-- ==== Proof.RefValue.lean ====
/-
  The reference program's stages read at an index, at the ideal instance.

  Entry (p, q) of the reference's logit matrix is its logit of the dot product of online row p with offline row q, the
  row's confidence and the label-match bit (`ref_logit`); entry (p, q) of its weight matrix is the bit read as an
  unsigned integer (`ref_weight`); and its loss of row p is the reference's row loss of row p's logits, weights and
  confidence (`ref_row`): a maximum over the row, a sum of exponentials, a logarithm, a weighted sum of log-probabilities,
  a negation and a quotient by the guarded count of matching labels.
-/
import proofs.«102495_j45234595561871_2_alg».proof.Proof.RefRead
import proofs.«102495_j45234595561871_2_alg».proof.Proof.Entry
import proofs.«102495_j45234595561871_2_alg».proof.Proof.Steps
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.ReadP

variable (x0 : (⟨S2048x128, .f32⟩ : BufTy).Contents (Elt Ideal)) (x1 : (⟨S2048, .i32⟩ : BufTy).Contents (Elt Ideal))
  (x2 : (⟨S32768x128, .f32⟩ : BufTy).Contents (Elt Ideal)) (x3 : (⟨S32768, .i32⟩ : BufTy).Contents (Elt Ideal))
  (x4 : (⟨S2048, .f32⟩ : BufTy).Contents (Elt Ideal))

/-! ## Index equations: the composed index maps at (p, q) -/

theorem i_l1 (p : Fin 2048) (q : Fin 32768) (a : Fin 128) : lidx_main_v1 (ix2 p q) a = ix2 p a :=
  funext fun ax => Fin.ext (by match ax with | ⟨0, _⟩ => rfl | ⟨1, _⟩ => rfl)
theorem i_r1 (p : Fin 2048) (q : Fin 32768) (a : Fin 128) : idx_main_v0 (ridx_main_v1 (ix2 p q) a) = ix2 q a :=
  funext fun ax => Fin.ext (by match ax with | ⟨0, _⟩ => rfl | ⟨1, _⟩ => rfl)
theorem i_yo (p : Fin 2048) (q : Fin 32768) : idx_main_v2 (idx_main_v4 (ix2 p q)) = ix1 p :=
  funext fun ax => Fin.ext (by match ax with | ⟨0, _⟩ => rfl)
theorem i_yf (p : Fin 2048) (q : Fin 32768) : idx_main_v3 (idx_main_v5 (ix2 p q)) = ix1 q :=
  funext fun ax => Fin.ext (by match ax with | ⟨0, _⟩ => rfl)
theorem i_cf (p : Fin 2048) (q : Fin 32768) : idx_main_v15 (idx_main_v18 (ix2 p q)) = ix1 p :=
  funext fun ax => Fin.ext (by match ax with | ⟨0, _⟩ => rfl)

/-- The raw similarity. -/
theorem ref_dot (p : Fin 2048) (q : Fin 32768) :
    val_main_v1 (F := Ideal) x0 x2 (ix2 p q) = ∑ a : Fin 128, x0 (ix2 p a) * x2 (ix2 q a) := by
  rw [val_main_v1_apply]
  refine Finset.sum_congr rfl fun a _ => ?_
  rw [val_main_v0_apply, i_l1, i_r1]

/-- The label-match bit. -/
theorem ref_bit (p : Fin 2048) (q : Fin 32768) :
    val_main_v6 (F := Ideal) x1 x3 (ix2 p q) = IntOp.cmpi .eq (x1 (ix1 p)) (x3 (ix1 q)) := by
  rw [val_main_v6_apply, val_main_v4_apply, val_main_v5_apply, val_main_v2_apply, val_main_v3_apply, i_yo, i_yf]

/-- The weight. -/
theorem ref_weight (p : Fin 2048) (q : Fin 32768) :
    val_main_v7 (F := Ideal) x1 x3 (ix2 p q) = ((((IntOp.cmpi .eq (x1 (ix1 p)) (x3 (ix1 q)) : BitVec 1)).toNat : ℝ) : EReal) := by
  rw [val_main_v7_apply, ref_bit]
  rfl

/-- The logit. -/
theorem ref_logit (p : Fin 2048) (q : Fin 32768) :
    val_main_v36 (F := Ideal) x0 x1 x2 x3 x4 (ix2 p q)
      = Entry.simRef (IntOp.cmpi .eq (x1 (ix1 p)) (x3 (ix1 q))) (∑ a : Fin 128, x0 (ix2 p a) * x2 (ix2 q a)) (x4 (ix1 p)) := by
  rw [val_main_v36_apply, val_main_v35_apply, val_main_v34_apply, val_main_cst_9_apply, val_main_v33_apply, val_main_v31_apply,
    val_main_v30_apply, val_main_cst_7_apply, val_main_v29_apply, val_main_v28_apply, val_main_cst_6_apply, val_main_v27_apply,
    val_main_v26_apply, val_main_cst_5_apply, val_main_v25_apply, val_main_v24_apply, val_main_cst_4_apply, val_main_v23_apply,
    val_main_v22_apply, val_main_v21_apply, val_main_v20_apply, val_main_cst_3_apply, val_main_v19_apply, val_main_v18_apply,
    val_main_v17_apply, val_main_v16_apply, val_main_cst_2_apply, val_main_v15_apply, i_cf, val_main_v14_apply, val_main_v13_apply,
    val_main_cst_1_apply, val_main_v12_apply, val_main_v11_apply, val_main_v10_apply, val_main_cst_0_apply, val_main_v9_apply,
    val_main_v8_apply, val_main_cst_apply, ref_weight, ref_dot, val_main_v32_apply, val_main_cst_8_apply]
  have hc : FloatOps.cmpf (F := Ideal) (φ := .f32) .ogt ((((IntOp.cmpi .eq (x1 (ix1 p)) (x3 (ix1 q)) : BitVec 1)).toNat : ℝ) : EReal)
      (FloatOps.ofBits .f32 0x3F000000#32) = IntOp.cmpi .eq (x1 (ix1 p)) (x3 (ix1 q)) := Entry.cmp_half _
  rw [hc]
  rfl

/-! ## A row of the reference -/

theorem i_row (p : Fin 2048) (k : Fin 32768) : idx_main_v58 (ix1 p) k = ix2 p k :=
  funext fun ax => Fin.ext (by match ax with | ⟨0, _⟩ => rfl | ⟨1, _⟩ => rfl)
theorem i_row42 (p : Fin 2048) (k : Fin 32768) : idx_main_v42 (ix1 p) k = ix2 p k :=
  funext fun ax => Fin.ext (by match ax with | ⟨0, _⟩ => rfl | ⟨1, _⟩ => rfl)
theorem i_row49 (p : Fin 2048) (k : Fin 32768) : idx_main_v49 (ix1 p) k = ix2 p k :=
  funext fun ax => Fin.ext (by match ax with | ⟨0, _⟩ => rfl | ⟨1, _⟩ => rfl)
theorem i_cf2 (p : Fin 2048) (q : Fin 32768) : idx_main_v54 (idx_main_v55 (ix2 p q)) = ix1 p :=
  funext fun ax => Fin.ext (by match ax with | ⟨0, _⟩ => rfl)
theorem i_max (p : Fin 2048) (q : Fin 32768) : idx_main_v38 (idx_main_v39 (ix2 p q)) = ix1 p :=
  funext fun ax => Fin.ext (by match ax with | ⟨0, _⟩ => rfl)
theorem i_lse (p : Fin 2048) (q : Fin 32768) : idx_main_v43 (idx_main_v47 (ix2 p q)) = ix1 p :=
  funext fun ax => Fin.ext (by match ax with | ⟨0, _⟩ => rfl)

/-- Column `k` put back into row `p`: the index (p, k). -/
theorem lift_row (h : S2048x32768.Reduces [1] S2048) (p : Fin 2048) (k : Fin 32768) : h.lift (ix1 p) k = ix2 p k := by
  funext a
  apply Fin.ext
  match a with
  | ⟨0, _⟩ => rfl
  | ⟨1, _⟩ => rfl

/-- The row maximum of the logits. -/
theorem ref_max (p : Fin 2048) :
    val_main_v37 (F := Ideal) x0 x1 x2 x3 x4 (ix1 p)
      = Finset.univ.fold max (Ideal.ofBits .f32 0xFF800000#32) (fun q : Fin 32768 => val_main_v36 (F := Ideal) x0 x1 x2 x3 x4 (ix2 p q)) := by
  have h : S2048x32768.Reduces [1] S2048 := by decide
  unfold val_main_v37
  generalize val_main_v36 (F := Ideal) x0 x1 x2 x3 x4 = y0
  rw [Host.reduce_eq_fold_single (α := Ideal .f32) FloatOps.maximumf y0 _ Facts₀.reducesTo_S2048x32768_S2048_d1 h Facts₀.h_S_ (ix1 p)]
  have e : (y0 ∘ h.lift (ix1 p)) = fun q : Fin 32768 => y0 (ix2 p q) := funext fun k => congrArg y0 (lift_row h p k)
  rw [e]
  rfl

/-- The reference's loss of row `p`. -/
theorem ref_row (p : Fin 2048) :
    val_main_v60 (F := Ideal) x0 x1 x2 x3 x4 (ix1 p)
      = Steps.lossR (x4 (ix1 p)) (fun q => val_main_v36 (F := Ideal) x0 x1 x2 x3 x4 (ix2 p q))
          (fun q => val_main_v7 (F := Ideal) x1 x3 (ix2 p q)) := by
  rw [val_main_v60_apply, val_main_v59_apply, val_main_v58_apply, val_main_v53_apply, val_main_v51_apply, val_main_v52_apply,
    val_main_v50_apply, val_main_v49_apply, val_main_cst_13_apply, val_main_cst_14_apply, val_main_cst_15_apply, val_main_cst_16_apply]
  simp only [i_row, i_row49, val_main_v57_apply, val_main_v56_apply, val_main_v55_apply, val_main_v54_apply, i_cf2,
    val_main_v48_apply, val_main_v47_apply, val_main_v46_apply, val_main_v45_apply, val_main_v44_apply, val_main_cst_12_apply,
    val_main_v43_apply, i_lse, val_main_v42_apply, val_main_cst_11_apply, i_row42, val_main_v41_apply, val_main_v40_apply,
    val_main_v39_apply, val_main_v38_apply, i_max, ref_max]
  unfold Steps.lossR
  simp only [Ideal.hostDivf_def, Ideal.hostNegf_def, Ideal.negf_def, Ideal.mulf_def, Ideal.subf_def, Ideal.addf_def,
    Ideal.hostUnary_log_def, Ideal.hostUnary_exp_def, Ideal.ofBits_def, Ideal.cmpf_def]

end Cert.ReferenceIdeal.RefValue

end
-- ==== Proof.Bridge.lean ====
/-
  The two programs compute one number.

  On real-valued arguments the reference's loss of row `p` is the kernel's loss of row `p`: the two logit matrices agree
  entry by entry (`Entry.simKer_coe`, `Entry.simRef_coe`: one real number), the two weight matrices agree, and the row
  losses agree (`Steps.loss_eq`). The reference sums its 2048 row losses from zero and divides by 2048; so does the
  kernel program, over a one-column matrix of the same 2048 numbers.
-/
import proofs.«102495_j45234595561871_2_alg».proof.Proof.KernelValue
import proofs.«102495_j45234595561871_2_alg».proof.Proof.RefValue

noncomputable section

open Idealize.ShloMosaic Idealize.ShloMosaic.TcCoe Idealize.SL.Sem Idealize.ShloMosaic.ValueIdx

namespace Cert.Bridge

open Cert.KernelIdeal Cert.KernelIdeal.Inv Cert.KernelIdeal.ValueK Cert.Spec Cert.RowData

/-- A sum over a rank-1 index set is the sum over its coordinate. -/
theorem sum_idx1 {M : Type} [AddCommMonoid M] {n : ℕ} (f : (⟨1, ![n]⟩ : Shape).Idx → M) :
    ∑ i, f i = ∑ a : Fin n, f (ix1 a) := by
  refine Fintype.sum_equiv ⟨fun i => (i 0 : Fin n), ix1, fun i => (eq_ix1 i).symm, fun _ => rfl⟩ _ _ fun i => ?_
  exact congrArg f (eq_ix1 i)

variable (m : (ℓ : Loc nD τ sig) → Buf (Elt Ideal) ℓ) (c : Dev nD)
variable (Ar : S2048x128.Idx → ℝ) (Br : S32768x128.Idx → ℝ) (Cr : S2048.Idx → ℝ)

/-- The argument arrays, typed as the reference's stages take them. -/
abbrev A0 : (⟨Cert.ReferenceIdeal.S2048x128, .f32⟩ : BufTy).Contents (Elt Ideal) := m ((c : Thread nD τ).loc main_arg0)
abbrev A1 : (⟨Cert.ReferenceIdeal.S2048, .i32⟩ : BufTy).Contents (Elt Ideal) := m ((c : Thread nD τ).loc main_arg1)
abbrev A2 : (⟨Cert.ReferenceIdeal.S32768x128, .f32⟩ : BufTy).Contents (Elt Ideal) := m ((c : Thread nD τ).loc main_arg2)
abbrev A3 : (⟨Cert.ReferenceIdeal.S32768, .i32⟩ : BufTy).Contents (Elt Ideal) := m ((c : Thread nD τ).loc main_arg3)
abbrev A4 : (⟨Cert.ReferenceIdeal.S2048, .f32⟩ : BufTy).Contents (Elt Ideal) := m ((c : Thread nD τ).loc main_arg4)

variable {m c Ar Br Cr} in
theorem hA0 (H : RealArgs m c Ar Br Cr) (i : S2048x128.Idx) : A0 m c i = ((Ar i : ℝ) : EReal) := H.hA i
variable {m c Ar Br Cr} in
theorem hA2 (H : RealArgs m c Ar Br Cr) (i : S32768x128.Idx) : A2 m c i = ((Br i : ℝ) : EReal) := H.hB i
variable {m c Ar Br Cr} in
theorem hA4 (H : RealArgs m c Ar Br Cr) (i : S2048.Idx) : A4 m c i = ((Cr i : ℝ) : EReal) := H.hC i

/-- The reference's loss of row `p` is the kernel's. -/
theorem row_eq (H : RealArgs m c Ar Br Cr) (p : Fin 2048) :
    Cert.ReferenceIdeal.ReadP.val_main_v60 (F := Ideal) (A0 m c) (A1 m c) (A2 m c) (A3 m c) (A4 m c) (ix1 p)
      = rowLoss m c Ar Br Cr p := by
  rw [Cert.ReferenceIdeal.RefValue.ref_row]
  have hs : (fun q : Fin 32768 => Cert.ReferenceIdeal.ReadP.val_main_v36 (F := Ideal) (A0 m c) (A1 m c) (A2 m c) (A3 m c) (A4 m c) (ix2 p q)) = fun q => ((sRow m c Ar Br Cr p q : ℝ) : EReal) := by
    funext q
    rw [Cert.ReferenceIdeal.RefValue.ref_logit]
    have hd : (∑ a : Fin 128, A0 m c (ix2 p a) * A2 m c (ix2 q a))
        = ((dotR Ar Br p q : ℝ) : EReal) := by
      unfold dotR
      rw [coe_sum]
      refine Finset.sum_congr rfl fun a _ => ?_
      rw [hA0 H, hA2 H, EReal.coe_mul]
    rw [hd, hA4 H, Entry.simRef_coe]
    rfl
  have hw : (fun q : Fin 32768 => Cert.ReferenceIdeal.ReadP.val_main_v7 (F := Ideal) (A1 m c) (A3 m c) (ix2 p q)) = fun q => ((wRow m c p q : ℝ) : EReal) := by
    funext q
    rw [Cert.ReferenceIdeal.RefValue.ref_weight, Entry.wRef_coe]
    rfl
  rw [hs, hw, hA4 H, ← Steps.loss_eq]
  rfl

/-- The reference's result is the kernel program's. -/
theorem result_eq (H : RealArgs m c Ar Br Cr) :
    Cert.ReferenceIdeal.ReadP.val_main_v62 (F := Ideal) (A0 m c) (A1 m c) (A2 m c) (A3 m c) (A4 m c)
      = result m c Ar Br Cr := by
  funext i
  rw [Cert.ReferenceIdeal.ReadP.val_main_v62_apply, Cert.ReferenceIdeal.ReadP.val_main_v61_apply]
  unfold result
  show _ = Ideal.div (Ideal.hostReduceAdd Facts₀.reducesTo_S2048x1_S_d0_1 (lossCol m c Ar Br Cr)
    (Ideal.ofBits .f32 0x00000000#32) i) (Ideal.ofBits .f32 0x45000000#32)
  rw [Ideal.hostReduceAdd_total Facts₀.reducesTo_S2048x1_S_d0_1 (fun b => b.elim0), sum_idx2, sum_idx1]
  have e : ∀ a : Fin 2048, ∑ b : Fin 1, lossCol m c Ar Br Cr (ix2 a b)
      = Cert.ReferenceIdeal.ReadP.val_main_v60 (F := Ideal) (A0 m c) (A1 m c) (A2 m c) (A3 m c) (A4 m c) (ix1 a) := fun a => by
    rw [Fin.sum_univ_one, row_eq m c Ar Br Cr H a]
    rfl
  simp only [e]
  rfl

end Cert.Bridge

end
-- ==== Proof.lean ====
/-
  A confidence-weighted supervised contrastive loss with a per-entry temperature: the streaming kernel against the
  whole-matrix reference, over the extended reals.

  For 2048 online rows and 32768 offline rows the logit of (p, q) is s(p,q) = d·(w + 0.01)/0.07, where d is the dot product
  of the two feature rows and w = 0.1 + 0.9·σ(2·(0.7·(match ? d : 1 − d) + 0.3·conf p)). The loss of row p is
  −conf p · Σ_q match(p,q)·(s(p,q) − max_q s − log(Σ_q exp(s − max_q s) + 1e-8)) / N_p, with N_p the number of matches (1 when
  there is none), and the result is the mean of the 2048 row losses.

  The reference forms the whole 2048 × 32768 matrix. The kernel streams 16 column tiles of 2048 per row block, keeping per
  row the running maximum, the sum of exponentials rescaled to it, the sum of matching logits and the match count, and at
  the last tile forms −conf·((S − N·max) − N·log(L + 1e-8)) / N_p. With finite inputs every logit is a real number, the
  rescaled sums are exact (exp(m − m')·exp(x − m) = exp(x − m')), and the weighted sum of log-probabilities distributes
  over its three terms, so the two row losses agree; both programs then add the 2048 row losses from zero and divide by
  2048. The kernel spells 1.4 and 0.6 where the reference spells (0.7·…)·2 and (0.3·…)·2 — exact doublings of the same
  binary values — and multiplies by a temperature factor that denotes the reciprocal of the reference's divisor 0.07.
-/
import proofs.«102495_j45234595561871_2_alg».proof.Defs
import proofs.«102495_j45234595561871_2_alg».proof.Proof.Gen.Kernel
import proofs.«102495_j45234595561871_2_alg».proof.Proof.Gen.Kernel.Frame
import proofs.«102495_j45234595561871_2_alg».proof.Proof.Gen.KernelIdeal
import proofs.«102495_j45234595561871_2_alg».proof.Proof.Gen.KernelIdeal.Frame
import proofs.«102495_j45234595561871_2_alg».proof.Proof.Gen.ReferenceIdeal
import proofs.«102495_j45234595561871_2_alg».proof.Proof.Gen.Pre_finite_inputs
import proofs.«102495_j45234595561871_2_alg».proof.Proof.RefRead
import proofs.«102495_j45234595561871_2_alg».proof.Proof.Finite
import proofs.«102495_j45234595561871_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference terminates with its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The one named constant: the temperature factor denotes the reciprocal of the reference's 0.07. -/
theorem preserves : Cert.preserves_Kernel_KernelIdeal :=
  IdealRules.named_const.statement Cert.KernelIdeal.κ "inv_base_temp" .f32 0x41649249#32 ((134217728 / 9395241 : ℝ) : EReal) rfl

/-- From memories that agree on the arguments, finite, both programs end at the same mean loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Finite.finite_of_pre _ _ _ _ _ (hpre c)
  choose Ar hAr using fun c => (hfin c).1
  choose Br hBr using fun c => (hfin c).2.1
  choose Cr hCr using fun c => (hfin c).2.2
  have H : ∀ c, Cert.KernelIdeal.Inv.RealArgs m c (Ar c) (Br c) (Cr c) := fun c => ⟨hAr c, hBr c, hCr c⟩
  refine ⟨fun c => Cert.KernelIdeal.ValueK.result m c (Ar c) (Br c) (Cr c), Cert.KernelIdeal.ValueK.run (m := m) ρ Ar Br Cr H, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v62_eq, (hagree c).1, (hagree c).2.1, (hagree c).2.2.1, (hagree c).2.2.2.1,
    (hagree c).2.2.2.2]
  exact Cert.Bridge.result_eq m c (Ar c) (Br c) (Cr c) (H c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
